-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x64x32 : Shape := ⟨3, ![1024, 64, 32]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x64x32 : S_.BroadcastsInDim S1024x64x32 (![] : Fin 0 → Fin S1024x64x32.rank)
  reducesTo_S1024x64x32_S_d0_1_2 : S1024x64x32.ReducesTo [0, 1, 2] S_

variable [Facts]

def fn {F : FTy → Type} [FloatOps F] (main_arg0 : FVec F S256x1024 .f32) (main_arg1 : FVec F S1024x64x32 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x64x32 .f32 := Host.absf main_arg1
  let main_cst_0 : FVec F S_ .f32 := constant S_ .f32 0x7F800000#32
  let main_v5 : FVec F S1024x64x32 .f32 := broadcastInDim S1024x64x32 ![] bcast_S_S1024x64x32 main_cst_0
  let main_v6 : IVec S1024x64x32 1 := cmpf .olt main_v4 main_v5
  let main_c_1 : IVec S_ 1 := constantI S_ 1 1#1
  let main_v7 : IVec S_ 1 := (fun x v => Host.reduce IntOp.andi x v reducesTo_S1024x64x32_S_d0_1_2 h_S_) main_v6 main_c_1
  let main_v8 : IVec S_ 1 := andi main_v3 main_v7
  main_v8
-- ==== Kernel.lean ====
abbrev S256x1024 : Shape := ⟨2, ![256, 1024]⟩
abbrev S1024x64x32 : Shape := ⟨3, ![1024, 64, 32]⟩
abbrev S1024x2048 : Shape := ⟨2, ![1024, 2048]⟩
abbrev S256x2048 : Shape := ⟨2, ![256, 2048]⟩
abbrev S1024x1024 : Shape := ⟨2, ![1024, 1024]⟩
abbrev S256x64x32 : Shape := ⟨3, ![256, 64, 32]⟩
abbrev S64x32x256 : Shape := ⟨3, ![64, 32, 256]⟩
abbrev S64x256 : Shape := ⟨2, ![64, 256]⟩
abbrev S256x256 : Shape := ⟨2, ![256, 256]⟩
abbrev S8x32x256 : Shape := ⟨3, ![8, 32, 256]⟩
abbrev S8x256 : Shape := ⟨2, ![8, 256]⟩
abbrev S256x1 : Shape := ⟨2, ![256, 1]⟩
abbrev S256 : Shape := ⟨1, ![256]⟩
abbrev S1x1x256 : Shape := ⟨3, ![1, 1, 256]⟩
abbrev S1x256 : Shape := ⟨2, ![1, 256]⟩
abbrev S256x64 : Shape := ⟨2, ![256, 64]⟩
abbrev S256x1088 : Shape := ⟨2, ![256, 1088]⟩

abbrev nBuf : Space → Nat
  | .hbm => 9
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024x64x32, .f32⟩
  | .hbm, ⟨2, _⟩ => ⟨S1024x2048, .f32⟩
  | .hbm, ⟨3, _⟩ => ⟨S256x2048, .f32⟩
  | .hbm, ⟨4, _⟩ => ⟨S256x64x32, .f32⟩
  | .hbm, ⟨5, _⟩ => ⟨S64x32x256, .f32⟩
  | .hbm, ⟨6, _⟩ => ⟨S64x256, .f32⟩
  | .hbm, ⟨7, _⟩ => ⟨S256x64, .f32⟩
  | .hbm, ⟨8, _⟩ => ⟨S256x1088, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S256x256, .f32⟩
  | .local _ .vmem, ⟨6, _⟩ => ⟨S256x256, .f32⟩
  | .local _ .vmem, ⟨7, _⟩ => ⟨S8x32x256, .f32⟩
  | .local _ .vmem, ⟨8, _⟩ => ⟨S8x32x256, .f32⟩
  | .local _ .vmem, ⟨9, _⟩ => ⟨S8x256, .f32⟩
  | .local _ .vmem, ⟨10, _⟩ => ⟨S8x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x32x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1024x64x32_S1024x2048 : S1024x64x32.ShapeCasts S1024x2048
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x2048_S256x64x32 : S256x2048.ShapeCasts S256x64x32
  transposes_S256x64x32_S64x32x256_1_2_0 : S256x64x32.Transposes [1, 2, 0] S64x32x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x32x256_S8x32x256_0_0_0 : ∀ a, (![0, 0, 0] : Fin 3 → Nat) a + S8x32x256.size a ≤ S8x32x256.size a
  h_S8x32x256 : 0 < S8x32x256.numel
  shapeCasts_S8x32x256_S8x32x256 : S8x32x256.ShapeCasts S8x32x256
  slices_S256x256_o0_0_S256x1 : S256x256.Slices ![0, 0] S256x1
  shapeCasts_S256x1_S256 : S256x1.ShapeCasts S256
  shapeCasts_S256_S256x1 : S256.ShapeCasts S256x1
  slices_S8x32x256_o0_0_0_S1x1x256 : S8x32x256.Slices ![0, 0, 0] S1x1x256
  shapeCasts_S1x1x256_S256 : S1x1x256.ShapeCasts S256
  shapeCasts_S256_S1x256 : S256.ShapeCasts S1x256
  shapeCasts_S256x1_S256x1 : S256x1.ShapeCasts S256x1
  broadcasts_S256x1_S256x256 : S256x1.Broadcasts S256x256
  shapeCasts_S1x256_S1x256 : S1x256.ShapeCasts S1x256
  broadcasts_S1x256_S256x256 : S1x256.Broadcasts S256x256
  slices_S256x256_o0_1_S256x1 : S256x256.Slices ![0, 1] S256x1
  slices_S8x32x256_o0_1_0_S1x1x256 : S8x32x256.Slices ![0, 1, 0] S1x1x256
  slices_S256x256_o0_2_S256x1 : S256x256.Slices ![0, 2] S256x1
  slices_S8x32x256_o0_2_0_S1x1x256 : S8x32x256.Slices ![0, 2, 0] S1x1x256
  slices_S256x256_o0_3_S256x1 : S256x256.Slices ![0, 3] S256x1
  slices_S8x32x256_o0_3_0_S1x1x256 : S8x32x256.Slices ![0, 3, 0] S1x1x256
  slices_S256x256_o0_4_S256x1 : S256x256.Slices ![0, 4] S256x1
  slices_S8x32x256_o0_4_0_S1x1x256 : S8x32x256.Slices ![0, 4, 0] S1x1x256
  slices_S256x256_o0_5_S256x1 : S256x256.Slices ![0, 5] S256x1
  slices_S8x32x256_o0_5_0_S1x1x256 : S8x32x256.Slices ![0, 5, 0] S1x1x256
  slices_S256x256_o0_6_S256x1 : S256x256.Slices ![0, 6] S256x1
  slices_S8x32x256_o0_6_0_S1x1x256 : S8x32x256.Slices ![0, 6, 0] S1x1x256
  slices_S256x256_o0_7_S256x1 : S256x256.Slices ![0, 7] S256x1
  slices_S8x32x256_o0_7_0_S1x1x256 : S8x32x256.Slices ![0, 7, 0] S1x1x256
  slices_S256x256_o0_8_S256x1 : S256x256.Slices ![0, 8] S256x1
  slices_S8x32x256_o0_8_0_S1x1x256 : S8x32x256.Slices ![0, 8, 0] S1x1x256
  slices_S256x256_o0_9_S256x1 : S256x256.Slices ![0, 9] S256x1
  slices_S8x32x256_o0_9_0_S1x1x256 : S8x32x256.Slices ![0, 9, 0] S1x1x256
  slices_S256x256_o0_10_S256x1 : S256x256.Slices ![0, 10] S256x1
  slices_S8x32x256_o0_10_0_S1x1x256 : S8x32x256.Slices ![0, 10, 0] S1x1x256
  slices_S256x256_o0_11_S256x1 : S256x256.Slices ![0, 11] S256x1
  slices_S8x32x256_o0_11_0_S1x1x256 : S8x32x256.Slices ![0, 11, 0] S1x1x256
  slices_S256x256_o0_12_S256x1 : S256x256.Slices ![0, 12] S256x1
  slices_S8x32x256_o0_12_0_S1x1x256 : S8x32x256.Slices ![0, 12, 0] S1x1x256
  slices_S256x256_o0_13_S256x1 : S256x256.Slices ![0, 13] S256x1
  slices_S8x32x256_o0_13_0_S1x1x256 : S8x32x256.Slices ![0, 13, 0] S1x1x256
  slices_S256x256_o0_14_S256x1 : S256x256.Slices ![0, 14] S256x1
  slices_S8x32x256_o0_14_0_S1x1x256 : S8x32x256.Slices ![0, 14, 0] S1x1x256
  slices_S256x256_o0_15_S256x1 : S256x256.Slices ![0, 15] S256x1
  slices_S8x32x256_o0_15_0_S1x1x256 : S8x32x256.Slices ![0, 15, 0] S1x1x256
  slices_S256x256_o0_16_S256x1 : S256x256.Slices ![0, 16] S256x1
  slices_S8x32x256_o0_16_0_S1x1x256 : S8x32x256.Slices ![0, 16, 0] S1x1x256
  slices_S256x256_o0_17_S256x1 : S256x256.Slices ![0, 17] S256x1
  slices_S8x32x256_o0_17_0_S1x1x256 : S8x32x256.Slices ![0, 17, 0] S1x1x256
  slices_S256x256_o0_18_S256x1 : S256x256.Slices ![0, 18] S256x1
  slices_S8x32x256_o0_18_0_S1x1x256 : S8x32x256.Slices ![0, 18, 0] S1x1x256
  slices_S256x256_o0_19_S256x1 : S256x256.Slices ![0, 19] S256x1
  slices_S8x32x256_o0_19_0_S1x1x256 : S8x32x256.Slices ![0, 19, 0] S1x1x256
  slices_S256x256_o0_20_S256x1 : S256x256.Slices ![0, 20] S256x1
  slices_S8x32x256_o0_20_0_S1x1x256 : S8x32x256.Slices ![0, 20, 0] S1x1x256
  slices_S256x256_o0_21_S256x1 : S256x256.Slices ![0, 21] S256x1
  slices_S8x32x256_o0_21_0_S1x1x256 : S8x32x256.Slices ![0, 21, 0] S1x1x256
  slices_S256x256_o0_22_S256x1 : S256x256.Slices ![0, 22] S256x1
  slices_S8x32x256_o0_22_0_S1x1x256 : S8x32x256.Slices ![0, 22, 0] S1x1x256
  slices_S256x256_o0_23_S256x1 : S256x256.Slices ![0, 23] S256x1
  slices_S8x32x256_o0_23_0_S1x1x256 : S8x32x256.Slices ![0, 23, 0] S1x1x256
  slices_S256x256_o0_24_S256x1 : S256x256.Slices ![0, 24] S256x1
  slices_S8x32x256_o0_24_0_S1x1x256 : S8x32x256.Slices ![0, 24, 0] S1x1x256
  slices_S256x256_o0_25_S256x1 : S256x256.Slices ![0, 25] S256x1
  slices_S8x32x256_o0_25_0_S1x1x256 : S8x32x256.Slices ![0, 25, 0] S1x1x256
  slices_S256x256_o0_26_S256x1 : S256x256.Slices ![0, 26] S256x1
  slices_S8x32x256_o0_26_0_S1x1x256 : S8x32x256.Slices ![0, 26, 0] S1x1x256
  slices_S256x256_o0_27_S256x1 : S256x256.Slices ![0, 27] S256x1
  slices_S8x32x256_o0_27_0_S1x1x256 : S8x32x256.Slices ![0, 27, 0] S1x1x256
  slices_S256x256_o0_28_S256x1 : S256x256.Slices ![0, 28] S256x1
  slices_S8x32x256_o0_28_0_S1x1x256 : S8x32x256.Slices ![0, 28, 0] S1x1x256
  slices_S256x256_o0_29_S256x1 : S256x256.Slices ![0, 29] S256x1
  slices_S8x32x256_o0_29_0_S1x1x256 : S8x32x256.Slices ![0, 29, 0] S1x1x256
  slices_S256x256_o0_30_S256x1 : S256x256.Slices ![0, 30] S256x1
  slices_S8x32x256_o0_30_0_S1x1x256 : S8x32x256.Slices ![0, 30, 0] S1x1x256
  slices_S256x256_o0_31_S256x1 : S256x256.Slices ![0, 31] S256x1
  slices_S8x32x256_o0_31_0_S1x1x256 : S8x32x256.Slices ![0, 31, 0] S1x1x256
  reduces_S256x256_S256 : S256x256.Reduces [0] S256
  inb_S8x256_S1x256_0_0 : ∀ a, (![0, 0] : Fin 2 → Nat) a + S1x256.size a ≤ S8x256.size a
  h_S1x256 : 0 < S1x256.numel
  shapeCasts_S1x256_S256 : S1x256.ShapeCasts S256
  slices_S256x256_o0_32_S256x1 : S256x256.Slices ![0, 32] S256x1
  slices_S8x32x256_o1_0_0_S1x1x256 : S8x32x256.Slices ![1, 0, 0] S1x1x256
  slices_S256x256_o0_33_S256x1 : S256x256.Slices ![0, 33] S256x1
  slices_S8x32x256_o1_1_0_S1x1x256 : S8x32x256.Slices ![1, 1, 0] S1x1x256
  slices_S256x256_o0_34_S256x1 : S256x256.Slices ![0, 34] S256x1
  slices_S8x32x256_o1_2_0_S1x1x256 : S8x32x256.Slices ![1, 2, 0] S1x1x256
  slices_S256x256_o0_35_S256x1 : S256x256.Slices ![0, 35] S256x1
  slices_S8x32x256_o1_3_0_S1x1x256 : S8x32x256.Slices ![1, 3, 0] S1x1x256
  slices_S256x256_o0_36_S256x1 : S256x256.Slices ![0, 36] S256x1
  slices_S8x32x256_o1_4_0_S1x1x256 : S8x32x256.Slices ![1, 4, 0] S1x1x256
  slices_S256x256_o0_37_S256x1 : S256x256.Slices ![0, 37] S256x1
  slices_S8x32x256_o1_5_0_S1x1x256 : S8x32x256.Slices ![1, 5, 0] S1x1x256
  slices_S256x256_o0_38_S256x1 : S256x256.Slices ![0, 38] S256x1
  slices_S8x32x256_o1_6_0_S1x1x256 : S8x32x256.Slices ![1, 6, 0] S1x1x256
  slices_S256x256_o0_39_S256x1 : S256x256.Slices ![0, 39] S256x1
  slices_S8x32x256_o1_7_0_S1x1x256 : S8x32x256.Slices ![1, 7, 0] S1x1x256
  slices_S256x256_o0_40_S256x1 : S256x256.Slices ![0, 40] S256x1
  slices_S8x32x256_o1_8_0_S1x1x256 : S8x32x256.Slices ![1, 8, 0] S1x1x256
  slices_S256x256_o0_41_S256x1 : S256x256.Slices ![0, 41] S256x1
  slices_S8x32x256_o1_9_0_S1x1x256 : S8x32x256.Slices ![1, 9, 0] S1x1x256
  slices_S256x256_o0_42_S256x1 : S256x256.Slices ![0, 42] S256x1
  slices_S8x32x256_o1_10_0_S1x1x256 : S8x32x256.Slices ![1, 10, 0] S1x1x256
  slices_S256x256_o0_43_S256x1 : S256x256.Slices ![0, 43] S256x1
  slices_S8x32x256_o1_11_0_S1x1x256 : S8x32x256.Slices ![1, 11, 0] S1x1x256
  slices_S256x256_o0_44_S256x1 : S256x256.Slices ![0, 44] S256x1
  slices_S8x32x256_o1_12_0_S1x1x256 : S8x32x256.Slices ![1, 12, 0] S1x1x256
  slices_S256x256_o0_45_S256x1 : S256x256.Slices ![0, 45] S256x1
  slices_S8x32x256_o1_13_0_S1x1x256 : S8x32x256.Slices ![1, 13, 0] S1x1x256
  slices_S256x256_o0_46_S256x1 : S256x256.Slices ![0, 46] S256x1
  slices_S8x32x256_o1_14_0_S1x1x256 : S8x32x256.Slices ![1, 14, 0] S1x1x256
  slices_S256x256_o0_47_S256x1 : S256x256.Slices ![0, 47] S256x1
  slices_S8x32x256_o1_15_0_S1x1x256 : S8x32x256.Slices ![1, 15, 0] S1x1x256
  slices_S256x256_o0_48_S256x1 : S256x256.Slices ![0, 48] S256x1
  slices_S8x32x256_o1_16_0_S1x1x256 : S8x32x256.Slices ![1, 16, 0] S1x1x256
  slices_S256x256_o0_49_S256x1 : S256x256.Slices ![0, 49] S256x1
  slices_S8x32x256_o1_17_0_S1x1x256 : S8x32x256.Slices ![1, 17, 0] S1x1x256
  slices_S256x256_o0_50_S256x1 : S256x256.Slices ![0, 50] S256x1
  slices_S8x32x256_o1_18_0_S1x1x256 : S8x32x256.Slices ![1, 18, 0] S1x1x256
  slices_S256x256_o0_51_S256x1 : S256x256.Slices ![0, 51] S256x1
  slices_S8x32x256_o1_19_0_S1x1x256 : S8x32x256.Slices ![1, 19, 0] S1x1x256
  slices_S256x256_o0_52_S256x1 : S256x256.Slices ![0, 52] S256x1
  slices_S8x32x256_o1_20_0_S1x1x256 : S8x32x256.Slices ![1, 20, 0] S1x1x256
  slices_S256x256_o0_53_S256x1 : S256x256.Slices ![0, 53] S256x1
  slices_S8x32x256_o1_21_0_S1x1x256 : S8x32x256.Slices ![1, 21, 0] S1x1x256
  slices_S256x256_o0_54_S256x1 : S256x256.Slices ![0, 54] S256x1
  slices_S8x32x256_o1_22_0_S1x1x256 : S8x32x256.Slices ![1, 22, 0] S1x1x256
  slices_S256x256_o0_55_S256x1 : S256x256.Slices ![0, 55] S256x1
  slices_S8x32x256_o1_23_0_S1x1x256 : S8x32x256.Slices ![1, 23, 0] S1x1x256
  slices_S256x256_o0_56_S256x1 : S256x256.Slices ![0, 56] S256x1
  slices_S8x32x256_o1_24_0_S1x1x256 : S8x32x256.Slices ![1, 24, 0] S1x1x256
  slices_S256x256_o0_57_S256x1 : S256x256.Slices ![0, 57] S256x1
  slices_S8x32x256_o1_25_0_S1x1x256 : S8x32x256.Slices ![1, 25, 0] S1x1x256
  slices_S256x256_o0_58_S256x1 : S256x256.Slices ![0, 58] S256x1
  slices_S8x32x256_o1_26_0_S1x1x256 : S8x32x256.Slices ![1, 26, 0] S1x1x256
  slices_S256x256_o0_59_S256x1 : S256x256.Slices ![0, 59] S256x1
  slices_S8x32x256_o1_27_0_S1x1x256 : S8x32x256.Slices ![1, 27, 0] S1x1x256
  slices_S256x256_o0_60_S256x1 : S256x256.Slices ![0, 60] S256x1
  slices_S8x32x256_o1_28_0_S1x1x256 : S8x32x256.Slices ![1, 28, 0] S1x1x256
  slices_S256x256_o0_61_S256x1 : S256x256.Slices ![0, 61] S256x1
  slices_S8x32x256_o1_29_0_S1x1x256 : S8x32x256.Slices ![1, 29, 0] S1x1x256
  slices_S256x256_o0_62_S256x1 : S256x256.Slices ![0, 62] S256x1
  slices_S8x32x256_o1_30_0_S1x1x256 : S8x32x256.Slices ![1, 30, 0] S1x1x256
  slices_S256x256_o0_63_S256x1 : S256x256.Slices ![0, 63] S256x1
  slices_S8x32x256_o1_31_0_S1x1x256 : S8x32x256.Slices ![1, 31, 0] S1x1x256
  inb_S8x256_S1x256_1_0 : ∀ a, (![1, 0] : Fin 2 → Nat) a + S1x256.size a ≤ S8x256.size a
  slices_S256x256_o0_64_S256x1 : S256x256.Slices ![0, 64] S256x1
  slices_S8x32x256_o2_0_0_S1x1x256 : S8x32x256.Slices ![2, 0, 0] S1x1x256
  slices_S256x256_o0_65_S256x1 : S256x256.Slices ![0, 65] S256x1
  slices_S8x32x256_o2_1_0_S1x1x256 : S8x32x256.Slices ![2, 1, 0] S1x1x256
  slices_S256x256_o0_66_S256x1 : S256x256.Slices ![0, 66] S256x1
  slices_S8x32x256_o2_2_0_S1x1x256 : S8x32x256.Slices ![2, 2, 0] S1x1x256
  slices_S256x256_o0_67_S256x1 : S256x256.Slices ![0, 67] S256x1
  slices_S8x32x256_o2_3_0_S1x1x256 : S8x32x256.Slices ![2, 3, 0] S1x1x256
  slices_S256x256_o0_68_S256x1 : S256x256.Slices ![0, 68] S256x1
  slices_S8x32x256_o2_4_0_S1x1x256 : S8x32x256.Slices ![2, 4, 0] S1x1x256
  slices_S256x256_o0_69_S256x1 : S256x256.Slices ![0, 69] S256x1
  slices_S8x32x256_o2_5_0_S1x1x256 : S8x32x256.Slices ![2, 5, 0] S1x1x256
  slices_S256x256_o0_70_S256x1 : S256x256.Slices ![0, 70] S256x1
  slices_S8x32x256_o2_6_0_S1x1x256 : S8x32x256.Slices ![2, 6, 0] S1x1x256
  slices_S256x256_o0_71_S256x1 : S256x256.Slices ![0, 71] S256x1
  slices_S8x32x256_o2_7_0_S1x1x256 : S8x32x256.Slices ![2, 7, 0] S1x1x256
  slices_S256x256_o0_72_S256x1 : S256x256.Slices ![0, 72] S256x1
  slices_S8x32x256_o2_8_0_S1x1x256 : S8x32x256.Slices ![2, 8, 0] S1x1x256
  slices_S256x256_o0_73_S256x1 : S256x256.Slices ![0, 73] S256x1
  slices_S8x32x256_o2_9_0_S1x1x256 : S8x32x256.Slices ![2, 9, 0] S1x1x256
  slices_S256x256_o0_74_S256x1 : S256x256.Slices ![0, 74] S256x1
  slices_S8x32x256_o2_10_0_S1x1x256 : S8x32x256.Slices ![2, 10, 0] S1x1x256
  slices_S256x256_o0_75_S256x1 : S256x256.Slices ![0, 75] S256x1
  slices_S8x32x256_o2_11_0_S1x1x256 : S8x32x256.Slices ![2, 11, 0] S1x1x256
  slices_S256x256_o0_76_S256x1 : S256x256.Slices ![0, 76] S256x1
  slices_S8x32x256_o2_12_0_S1x1x256 : S8x32x256.Slices ![2, 12, 0] S1x1x256
  slices_S256x256_o0_77_S256x1 : S256x256.Slices ![0, 77] S256x1
  slices_S8x32x256_o2_13_0_S1x1x256 : S8x32x256.Slices ![2, 13, 0] S1x1x256
  slices_S256x256_o0_78_S256x1 : S256x256.Slices ![0, 78] S256x1
  slices_S8x32x256_o2_14_0_S1x1x256 : S8x32x256.Slices ![2, 14, 0] S1x1x256
  slices_S256x256_o0_79_S256x1 : S256x256.Slices ![0, 79] S256x1
  slices_S8x32x256_o2_15_0_S1x1x256 : S8x32x256.Slices ![2, 15, 0] S1x1x256
  slices_S256x256_o0_80_S256x1 : S256x256.Slices ![0, 80] S256x1
  slices_S8x32x256_o2_16_0_S1x1x256 : S8x32x256.Slices ![2, 16, 0] S1x1x256
  slices_S256x256_o0_81_S256x1 : S256x256.Slices ![0, 81] S256x1
  slices_S8x32x256_o2_17_0_S1x1x256 : S8x32x256.Slices ![2, 17, 0] S1x1x256
  slices_S256x256_o0_82_S256x1 : S256x256.Slices ![0, 82] S256x1
  slices_S8x32x256_o2_18_0_S1x1x256 : S8x32x256.Slices ![2, 18, 0] S1x1x256
  slices_S256x256_o0_83_S256x1 : S256x256.Slices ![0, 83] S256x1
  slices_S8x32x256_o2_19_0_S1x1x256 : S8x32x256.Slices ![2, 19, 0] S1x1x256
  slices_S256x256_o0_84_S256x1 : S256x256.Slices ![0, 84] S256x1
  slices_S8x32x256_o2_20_0_S1x1x256 : S8x32x256.Slices ![2, 20, 0] S1x1x256
  slices_S256x256_o0_85_S256x1 : S256x256.Slices ![0, 85] S256x1
  slices_S8x32x256_o2_21_0_S1x1x256 : S8x32x256.Slices ![2, 21, 0] S1x1x256
  slices_S256x256_o0_86_S256x1 : S256x256.Slices ![0, 86] S256x1
  slices_S8x32x256_o2_22_0_S1x1x256 : S8x32x256.Slices ![2, 22, 0] S1x1x256
  slices_S256x256_o0_87_S256x1 : S256x256.Slices ![0, 87] S256x1
  slices_S8x32x256_o2_23_0_S1x1x256 : S8x32x256.Slices ![2, 23, 0] S1x1x256
  slices_S256x256_o0_88_S256x1 : S256x256.Slices ![0, 88] S256x1
  slices_S8x32x256_o2_24_0_S1x1x256 : S8x32x256.Slices ![2, 24, 0] S1x1x256
  slices_S256x256_o0_89_S256x1 : S256x256.Slices ![0, 89] S256x1
  slices_S8x32x256_o2_25_0_S1x1x256 : S8x32x256.Slices ![2, 25, 0] S1x1x256
  slices_S256x256_o0_90_S256x1 : S256x256.Slices ![0, 90] S256x1
  slices_S8x32x256_o2_26_0_S1x1x256 : S8x32x256.Slices ![2, 26, 0] S1x1x256
  slices_S256x256_o0_91_S256x1 : S256x256.Slices ![0, 91] S256x1
  slices_S8x32x256_o2_27_0_S1x1x256 : S8x32x256.Slices ![2, 27, 0] S1x1x256
  slices_S256x256_o0_92_S256x1 : S256x256.Slices ![0, 92] S256x1
  slices_S8x32x256_o2_28_0_S1x1x256 : S8x32x256.Slices ![2, 28, 0] S1x1x256
  slices_S256x256_o0_93_S256x1 : S256x256.Slices ![0, 93] S256x1
  slices_S8x32x256_o2_29_0_S1x1x256 : S8x32x256.Slices ![2, 29, 0] S1x1x256
  slices_S256x256_o0_94_S256x1 : S256x256.Slices ![0, 94] S256x1
  slices_S8x32x256_o2_30_0_S1x1x256 : S8x32x256.Slices ![2, 30, 0] S1x1x256
  slices_S256x256_o0_95_S256x1 : S256x256.Slices ![0, 95] S256x1
  slices_S8x32x256_o2_31_0_S1x1x256 : S8x32x256.Slices ![2, 31, 0] S1x1x256
  inb_S8x256_S1x256_2_0 : ∀ a, (![2, 0] : Fin 2 → Nat) a + S1x256.size a ≤ S8x256.size a
  slices_S256x256_o0_96_S256x1 : S256x256.Slices ![0, 96] S256x1
  slices_S8x32x256_o3_0_0_S1x1x256 : S8x32x256.Slices ![3, 0, 0] S1x1x256
  slices_S256x256_o0_97_S256x1 : S256x256.Slices ![0, 97] S256x1
  slices_S8x32x256_o3_1_0_S1x1x256 : S8x32x256.Slices ![3, 1, 0] S1x1x256
  slices_S256x256_o0_98_S256x1 : S256x256.Slices ![0, 98] S256x1
  slices_S8x32x256_o3_2_0_S1x1x256 : S8x32x256.Slices ![3, 2, 0] S1x1x256
  slices_S256x256_o0_99_S256x1 : S256x256.Slices ![0, 99] S256x1
  slices_S8x32x256_o3_3_0_S1x1x256 : S8x32x256.Slices ![3, 3, 0] S1x1x256
  slices_S256x256_o0_100_S256x1 : S256x256.Slices ![0, 100] S256x1
  slices_S8x32x256_o3_4_0_S1x1x256 : S8x32x256.Slices ![3, 4, 0] S1x1x256
  slices_S256x256_o0_101_S256x1 : S256x256.Slices ![0, 101] S256x1
  slices_S8x32x256_o3_5_0_S1x1x256 : S8x32x256.Slices ![3, 5, 0] S1x1x256
  slices_S256x256_o0_102_S256x1 : S256x256.Slices ![0, 102] S256x1
  slices_S8x32x256_o3_6_0_S1x1x256 : S8x32x256.Slices ![3, 6, 0] S1x1x256
  slices_S256x256_o0_103_S256x1 : S256x256.Slices ![0, 103] S256x1
  slices_S8x32x256_o3_7_0_S1x1x256 : S8x32x256.Slices ![3, 7, 0] S1x1x256
  slices_S256x256_o0_104_S256x1 : S256x256.Slices ![0, 104] S256x1
  slices_S8x32x256_o3_8_0_S1x1x256 : S8x32x256.Slices ![3, 8, 0] S1x1x256
  slices_S256x256_o0_105_S256x1 : S256x256.Slices ![0, 105] S256x1
  slices_S8x32x256_o3_9_0_S1x1x256 : S8x32x256.Slices ![3, 9, 0] S1x1x256
  slices_S256x256_o0_106_S256x1 : S256x256.Slices ![0, 106] S256x1
  slices_S8x32x256_o3_10_0_S1x1x256 : S8x32x256.Slices ![3, 10, 0] S1x1x256
  slices_S256x256_o0_107_S256x1 : S256x256.Slices ![0, 107] S256x1
  slices_S8x32x256_o3_11_0_S1x1x256 : S8x32x256.Slices ![3, 11, 0] S1x1x256
  slices_S256x256_o0_108_S256x1 : S256x256.Slices ![0, 108] S256x1
  slices_S8x32x256_o3_12_0_S1x1x256 : S8x32x256.Slices ![3, 12, 0] S1x1x256
  slices_S256x256_o0_109_S256x1 : S256x256.Slices ![0, 109] S256x1
  slices_S8x32x256_o3_13_0_S1x1x256 : S8x32x256.Slices ![3, 13, 0] S1x1x256
  slices_S256x256_o0_110_S256x1 : S256x256.Slices ![0, 110] S256x1
  slices_S8x32x256_o3_14_0_S1x1x256 : S8x32x256.Slices ![3, 14, 0] S1x1x256
  slices_S256x256_o0_111_S256x1 : S256x256.Slices ![0, 111] S256x1
  slices_S8x32x256_o3_15_0_S1x1x256 : S8x32x256.Slices ![3, 15, 0] S1x1x256
  slices_S256x256_o0_112_S256x1 : S256x256.Slices ![0, 112] S256x1
  slices_S8x32x256_o3_16_0_S1x1x256 : S8x32x256.Slices ![3, 16, 0] S1x1x256
  slices_S256x256_o0_113_S256x1 : S256x256.Slices ![0, 113] S256x1
  slices_S8x32x256_o3_17_0_S1x1x256 : S8x32x256.Slices ![3, 17, 0] S1x1x256
  slices_S256x256_o0_114_S256x1 : S256x256.Slices ![0, 114] S256x1
  slices_S8x32x256_o3_18_0_S1x1x256 : S8x32x256.Slices ![3, 18, 0] S1x1x256
  slices_S256x256_o0_115_S256x1 : S256x256.Slices ![0, 115] S256x1
  slices_S8x32x256_o3_19_0_S1x1x256 : S8x32x256.Slices ![3, 19, 0] S1x1x256
  slices_S256x256_o0_116_S256x1 : S256x256.Slices ![0, 116] S256x1
  slices_S8x32x256_o3_20_0_S1x1x256 : S8x32x256.Slices ![3, 20, 0] S1x1x256
  slices_S256x256_o0_117_S256x1 : S256x256.Slices ![0, 117] S256x1
  slices_S8x32x256_o3_21_0_S1x1x256 : S8x32x256.Slices ![3, 21, 0] S1x1x256
  slices_S256x256_o0_118_S256x1 : S256x256.Slices ![0, 118] S256x1
  slices_S8x32x256_o3_22_0_S1x1x256 : S8x32x256.Slices ![3, 22, 0] S1x1x256
  slices_S256x256_o0_119_S256x1 : S256x256.Slices ![0, 119] S256x1
  slices_S8x32x256_o3_23_0_S1x1x256 : S8x32x256.Slices ![3, 23, 0] S1x1x256
  slices_S256x256_o0_120_S256x1 : S256x256.Slices ![0, 120] S256x1
  slices_S8x32x256_o3_24_0_S1x1x256 : S8x32x256.Slices ![3, 24, 0] S1x1x256
  slices_S256x256_o0_121_S256x1 : S256x256.Slices ![0, 121] S256x1
  slices_S8x32x256_o3_25_0_S1x1x256 : S8x32x256.Slices ![3, 25, 0] S1x1x256
  slices_S256x256_o0_122_S256x1 : S256x256.Slices ![0, 122] S256x1
  slices_S8x32x256_o3_26_0_S1x1x256 : S8x32x256.Slices ![3, 26, 0] S1x1x256
  slices_S256x256_o0_123_S256x1 : S256x256.Slices ![0, 123] S256x1
  slices_S8x32x256_o3_27_0_S1x1x256 : S8x32x256.Slices ![3, 27, 0] S1x1x256
  slices_S256x256_o0_124_S256x1 : S256x256.Slices ![0, 124] S256x1
  slices_S8x32x256_o3_28_0_S1x1x256 : S8x32x256.Slices ![3, 28, 0] S1x1x256
  slices_S256x256_o0_125_S256x1 : S256x256.Slices ![0, 125] S256x1
  slices_S8x32x256_o3_29_0_S1x1x256 : S8x32x256.Slices ![3, 29, 0] S1x1x256
  slices_S256x256_o0_126_S256x1 : S256x256.Slices ![0, 126] S256x1
  slices_S8x32x256_o3_30_0_S1x1x256 : S8x32x256.Slices ![3, 30, 0] S1x1x256
  slices_S256x256_o0_127_S256x1 : S256x256.Slices ![0, 127] S256x1
  slices_S8x32x256_o3_31_0_S1x1x256 : S8x32x256.Slices ![3, 31, 0] S1x1x256
  inb_S8x256_S1x256_3_0 : ∀ a, (![3, 0] : Fin 2 → Nat) a + S1x256.size a ≤ S8x256.size a
  slices_S256x256_o0_128_S256x1 : S256x256.Slices ![0, 128] S256x1
  slices_S8x32x256_o4_0_0_S1x1x256 : S8x32x256.Slices ![4, 0, 0] S1x1x256
  slices_S256x256_o0_129_S256x1 : S256x256.Slices ![0, 129] S256x1
  slices_S8x32x256_o4_1_0_S1x1x256 : S8x32x256.Slices ![4, 1, 0] S1x1x256
  slices_S256x256_o0_130_S256x1 : S256x256.Slices ![0, 130] S256x1
  slices_S8x32x256_o4_2_0_S1x1x256 : S8x32x256.Slices ![4, 2, 0] S1x1x256
  slices_S256x256_o0_131_S256x1 : S256x256.Slices ![0, 131] S256x1
  slices_S8x32x256_o4_3_0_S1x1x256 : S8x32x256.Slices ![4, 3, 0] S1x1x256
  slices_S256x256_o0_132_S256x1 : S256x256.Slices ![0, 132] S256x1
  slices_S8x32x256_o4_4_0_S1x1x256 : S8x32x256.Slices ![4, 4, 0] S1x1x256
  slices_S256x256_o0_133_S256x1 : S256x256.Slices ![0, 133] S256x1
  slices_S8x32x256_o4_5_0_S1x1x256 : S8x32x256.Slices ![4, 5, 0] S1x1x256
  slices_S256x256_o0_134_S256x1 : S256x256.Slices ![0, 134] S256x1
  slices_S8x32x256_o4_6_0_S1x1x256 : S8x32x256.Slices ![4, 6, 0] S1x1x256
  slices_S256x256_o0_135_S256x1 : S256x256.Slices ![0, 135] S256x1
  slices_S8x32x256_o4_7_0_S1x1x256 : S8x32x256.Slices ![4, 7, 0] S1x1x256
  slices_S256x256_o0_136_S256x1 : S256x256.Slices ![0, 136] S256x1
  slices_S8x32x256_o4_8_0_S1x1x256 : S8x32x256.Slices ![4, 8, 0] S1x1x256
  slices_S256x256_o0_137_S256x1 : S256x256.Slices ![0, 137] S256x1
  slices_S8x32x256_o4_9_0_S1x1x256 : S8x32x256.Slices ![4, 9, 0] S1x1x256
  slices_S256x256_o0_138_S256x1 : S256x256.Slices ![0, 138] S256x1
  slices_S8x32x256_o4_10_0_S1x1x256 : S8x32x256.Slices ![4, 10, 0] S1x1x256
  slices_S256x256_o0_139_S256x1 : S256x256.Slices ![0, 139] S256x1
  slices_S8x32x256_o4_11_0_S1x1x256 : S8x32x256.Slices ![4, 11, 0] S1x1x256
  slices_S256x256_o0_140_S256x1 : S256x256.Slices ![0, 140] S256x1
  slices_S8x32x256_o4_12_0_S1x1x256 : S8x32x256.Slices ![4, 12, 0] S1x1x256
  slices_S256x256_o0_141_S256x1 : S256x256.Slices ![0, 141] S256x1
  slices_S8x32x256_o4_13_0_S1x1x256 : S8x32x256.Slices ![4, 13, 0] S1x1x256
  slices_S256x256_o0_142_S256x1 : S256x256.Slices ![0, 142] S256x1
  slices_S8x32x256_o4_14_0_S1x1x256 : S8x32x256.Slices ![4, 14, 0] S1x1x256
  slices_S256x256_o0_143_S256x1 : S256x256.Slices ![0, 143] S256x1
  slices_S8x32x256_o4_15_0_S1x1x256 : S8x32x256.Slices ![4, 15, 0] S1x1x256
  slices_S256x256_o0_144_S256x1 : S256x256.Slices ![0, 144] S256x1
  slices_S8x32x256_o4_16_0_S1x1x256 : S8x32x256.Slices ![4, 16, 0] S1x1x256
  slices_S256x256_o0_145_S256x1 : S256x256.Slices ![0, 145] S256x1
  slices_S8x32x256_o4_17_0_S1x1x256 : S8x32x256.Slices ![4, 17, 0] S1x1x256
  slices_S256x256_o0_146_S256x1 : S256x256.Slices ![0, 146] S256x1
  slices_S8x32x256_o4_18_0_S1x1x256 : S8x32x256.Slices ![4, 18, 0] S1x1x256
  slices_S256x256_o0_147_S256x1 : S256x256.Slices ![0, 147] S256x1
  slices_S8x32x256_o4_19_0_S1x1x256 : S8x32x256.Slices ![4, 19, 0] S1x1x256
  slices_S256x256_o0_148_S256x1 : S256x256.Slices ![0, 148] S256x1
  slices_S8x32x256_o4_20_0_S1x1x256 : S8x32x256.Slices ![4, 20, 0] S1x1x256
  slices_S256x256_o0_149_S256x1 : S256x256.Slices ![0, 149] S256x1
  slices_S8x32x256_o4_21_0_S1x1x256 : S8x32x256.Slices ![4, 21, 0] S1x1x256
  slices_S256x256_o0_150_S256x1 : S256x256.Slices ![0, 150] S256x1
  slices_S8x32x256_o4_22_0_S1x1x256 : S8x32x256.Slices ![4, 22, 0] S1x1x256
  slices_S256x256_o0_151_S256x1 : S256x256.Slices ![0, 151] S256x1
  slices_S8x32x256_o4_23_0_S1x1x256 : S8x32x256.Slices ![4, 23, 0] S1x1x256
  slices_S256x256_o0_152_S256x1 : S256x256.Slices ![0, 152] S256x1
  slices_S8x32x256_o4_24_0_S1x1x256 : S8x32x256.Slices ![4, 24, 0] S1x1x256
  slices_S256x256_o0_153_S256x1 : S256x256.Slices ![0, 153] S256x1
  slices_S8x32x256_o4_25_0_S1x1x256 : S8x32x256.Slices ![4, 25, 0] S1x1x256
  slices_S256x256_o0_154_S256x1 : S256x256.Slices ![0, 154] S256x1
  slices_S8x32x256_o4_26_0_S1x1x256 : S8x32x256.Slices ![4, 26, 0] S1x1x256
  slices_S256x256_o0_155_S256x1 : S256x256.Slices ![0, 155] S256x1
  slices_S8x32x256_o4_27_0_S1x1x256 : S8x32x256.Slices ![4, 27, 0] S1x1x256
  slices_S256x256_o0_156_S256x1 : S256x256.Slices ![0, 156] S256x1
  slices_S8x32x256_o4_28_0_S1x1x256 : S8x32x256.Slices ![4, 28, 0] S1x1x256
  slices_S256x256_o0_157_S256x1 : S256x256.Slices ![0, 157] S256x1
  slices_S8x32x256_o4_29_0_S1x1x256 : S8x32x256.Slices ![4, 29, 0] S1x1x256
  slices_S256x256_o0_158_S256x1 : S256x256.Slices ![0, 158] S256x1
  slices_S8x32x256_o4_30_0_S1x1x256 : S8x32x256.Slices ![4, 30, 0] S1x1x256
  slices_S256x256_o0_159_S256x1 : S256x256.Slices ![0, 159] S256x1
  slices_S8x32x256_o4_31_0_S1x1x256 : S8x32x256.Slices ![4, 31, 0] S1x1x256
  inb_S8x256_S1x256_4_0 : ∀ a, (![4, 0] : Fin 2 → Nat) a + S1x256.size a ≤ S8x256.size a
  slices_S256x256_o0_160_S256x1 : S256x256.Slices ![0, 160] S256x1
  slices_S8x32x256_o5_0_0_S1x1x256 : S8x32x256.Slices ![5, 0, 0] S1x1x256
  slices_S256x256_o0_161_S256x1 : S256x256.Slices ![0, 161] S256x1
  slices_S8x32x256_o5_1_0_S1x1x256 : S8x32x256.Slices ![5, 1, 0] S1x1x256
  slices_S256x256_o0_162_S256x1 : S256x256.Slices ![0, 162] S256x1
  slices_S8x32x256_o5_2_0_S1x1x256 : S8x32x256.Slices ![5, 2, 0] S1x1x256
  slices_S256x256_o0_163_S256x1 : S256x256.Slices ![0, 163] S256x1
  slices_S8x32x256_o5_3_0_S1x1x256 : S8x32x256.Slices ![5, 3, 0] S1x1x256
  slices_S256x256_o0_164_S256x1 : S256x256.Slices ![0, 164] S256x1
  slices_S8x32x256_o5_4_0_S1x1x256 : S8x32x256.Slices ![5, 4, 0] S1x1x256
  slices_S256x256_o0_165_S256x1 : S256x256.Slices ![0, 165] S256x1
  slices_S8x32x256_o5_5_0_S1x1x256 : S8x32x256.Slices ![5, 5, 0] S1x1x256
  slices_S256x256_o0_166_S256x1 : S256x256.Slices ![0, 166] S256x1
  slices_S8x32x256_o5_6_0_S1x1x256 : S8x32x256.Slices ![5, 6, 0] S1x1x256
  slices_S256x256_o0_167_S256x1 : S256x256.Slices ![0, 167] S256x1
  slices_S8x32x256_o5_7_0_S1x1x256 : S8x32x256.Slices ![5, 7, 0] S1x1x256
  slices_S256x256_o0_168_S256x1 : S256x256.Slices ![0, 168] S256x1
  slices_S8x32x256_o5_8_0_S1x1x256 : S8x32x256.Slices ![5, 8, 0] S1x1x256
  slices_S256x256_o0_169_S256x1 : S256x256.Slices ![0, 169] S256x1
  slices_S8x32x256_o5_9_0_S1x1x256 : S8x32x256.Slices ![5, 9, 0] S1x1x256
  slices_S256x256_o0_170_S256x1 : S256x256.Slices ![0, 170] S256x1
  slices_S8x32x256_o5_10_0_S1x1x256 : S8x32x256.Slices ![5, 10, 0] S1x1x256
  slices_S256x256_o0_171_S256x1 : S256x256.Slices ![0, 171] S256x1
  slices_S8x32x256_o5_11_0_S1x1x256 : S8x32x256.Slices ![5, 11, 0] S1x1x256
  slices_S256x256_o0_172_S256x1 : S256x256.Slices ![0, 172] S256x1
  slices_S8x32x256_o5_12_0_S1x1x256 : S8x32x256.Slices ![5, 12, 0] S1x1x256
  slices_S256x256_o0_173_S256x1 : S256x256.Slices ![0, 173] S256x1
  slices_S8x32x256_o5_13_0_S1x1x256 : S8x32x256.Slices ![5, 13, 0] S1x1x256
  slices_S256x256_o0_174_S256x1 : S256x256.Slices ![0, 174] S256x1
  slices_S8x32x256_o5_14_0_S1x1x256 : S8x32x256.Slices ![5, 14, 0] S1x1x256
  slices_S256x256_o0_175_S256x1 : S256x256.Slices ![0, 175] S256x1
  slices_S8x32x256_o5_15_0_S1x1x256 : S8x32x256.Slices ![5, 15, 0] S1x1x256
  slices_S256x256_o0_176_S256x1 : S256x256.Slices ![0, 176] S256x1
  slices_S8x32x256_o5_16_0_S1x1x256 : S8x32x256.Slices ![5, 16, 0] S1x1x256
  slices_S256x256_o0_177_S256x1 : S256x256.Slices ![0, 177] S256x1
  slices_S8x32x256_o5_17_0_S1x1x256 : S8x32x256.Slices ![5, 17, 0] S1x1x256
  slices_S256x256_o0_178_S256x1 : S256x256.Slices ![0, 178] S256x1
  slices_S8x32x256_o5_18_0_S1x1x256 : S8x32x256.Slices ![5, 18, 0] S1x1x256
  slices_S256x256_o0_179_S256x1 : S256x256.Slices ![0, 179] S256x1
  slices_S8x32x256_o5_19_0_S1x1x256 : S8x32x256.Slices ![5, 19, 0] S1x1x256
  slices_S256x256_o0_180_S256x1 : S256x256.Slices ![0, 180] S256x1
  slices_S8x32x256_o5_20_0_S1x1x256 : S8x32x256.Slices ![5, 20, 0] S1x1x256
  slices_S256x256_o0_181_S256x1 : S256x256.Slices ![0, 181] S256x1
  slices_S8x32x256_o5_21_0_S1x1x256 : S8x32x256.Slices ![5, 21, 0] S1x1x256
  slices_S256x256_o0_182_S256x1 : S256x256.Slices ![0, 182] S256x1
  slices_S8x32x256_o5_22_0_S1x1x256 : S8x32x256.Slices ![5, 22, 0] S1x1x256
  slices_S256x256_o0_183_S256x1 : S256x256.Slices ![0, 183] S256x1
  slices_S8x32x256_o5_23_0_S1x1x256 : S8x32x256.Slices ![5, 23, 0] S1x1x256
  slices_S256x256_o0_184_S256x1 : S256x256.Slices ![0, 184] S256x1
  slices_S8x32x256_o5_24_0_S1x1x256 : S8x32x256.Slices ![5, 24, 0] S1x1x256
  slices_S256x256_o0_185_S256x1 : S256x256.Slices ![0, 185] S256x1
  slices_S8x32x256_o5_25_0_S1x1x256 : S8x32x256.Slices ![5, 25, 0] S1x1x256
  slices_S256x256_o0_186_S256x1 : S256x256.Slices ![0, 186] S256x1
  slices_S8x32x256_o5_26_0_S1x1x256 : S8x32x256.Slices ![5, 26, 0] S1x1x256
  slices_S256x256_o0_187_S256x1 : S256x256.Slices ![0, 187] S256x1
  slices_S8x32x256_o5_27_0_S1x1x256 : S8x32x256.Slices ![5, 27, 0] S1x1x256
  slices_S256x256_o0_188_S256x1 : S256x256.Slices ![0, 188] S256x1
  slices_S8x32x256_o5_28_0_S1x1x256 : S8x32x256.Slices ![5, 28, 0] S1x1x256
  slices_S256x256_o0_189_S256x1 : S256x256.Slices ![0, 189] S256x1
  slices_S8x32x256_o5_29_0_S1x1x256 : S8x32x256.Slices ![5, 29, 0] S1x1x256
  slices_S256x256_o0_190_S256x1 : S256x256.Slices ![0, 190] S256x1
  slices_S8x32x256_o5_30_0_S1x1x256 : S8x32x256.Slices ![5, 30, 0] S1x1x256
  slices_S256x256_o0_191_S256x1 : S256x256.Slices ![0, 191] S256x1
  slices_S8x32x256_o5_31_0_S1x1x256 : S8x32x256.Slices ![5, 31, 0] S1x1x256
  inb_S8x256_S1x256_5_0 : ∀ a, (![5, 0] : Fin 2 → Nat) a + S1x256.size a ≤ S8x256.size a
  slices_S256x256_o0_192_S256x1 : S256x256.Slices ![0, 192] S256x1
  slices_S8x32x256_o6_0_0_S1x1x256 : S8x32x256.Slices ![6, 0, 0] S1x1x256
  slices_S256x256_o0_193_S256x1 : S256x256.Slices ![0, 193] S256x1
  slices_S8x32x256_o6_1_0_S1x1x256 : S8x32x256.Slices ![6, 1, 0] S1x1x256
  slices_S256x256_o0_194_S256x1 : S256x256.Slices ![0, 194] S256x1
  slices_S8x32x256_o6_2_0_S1x1x256 : S8x32x256.Slices ![6, 2, 0] S1x1x256
  slices_S256x256_o0_195_S256x1 : S256x256.Slices ![0, 195] S256x1
  slices_S8x32x256_o6_3_0_S1x1x256 : S8x32x256.Slices ![6, 3, 0] S1x1x256
  slices_S256x256_o0_196_S256x1 : S256x256.Slices ![0, 196] S256x1
  slices_S8x32x256_o6_4_0_S1x1x256 : S8x32x256.Slices ![6, 4, 0] S1x1x256
  slices_S256x256_o0_197_S256x1 : S256x256.Slices ![0, 197] S256x1
  slices_S8x32x256_o6_5_0_S1x1x256 : S8x32x256.Slices ![6, 5, 0] S1x1x256
  slices_S256x256_o0_198_S256x1 : S256x256.Slices ![0, 198] S256x1
  slices_S8x32x256_o6_6_0_S1x1x256 : S8x32x256.Slices ![6, 6, 0] S1x1x256
  slices_S256x256_o0_199_S256x1 : S256x256.Slices ![0, 199] S256x1
  slices_S8x32x256_o6_7_0_S1x1x256 : S8x32x256.Slices ![6, 7, 0] S1x1x256
  slices_S256x256_o0_200_S256x1 : S256x256.Slices ![0, 200] S256x1
  slices_S8x32x256_o6_8_0_S1x1x256 : S8x32x256.Slices ![6, 8, 0] S1x1x256
  slices_S256x256_o0_201_S256x1 : S256x256.Slices ![0, 201] S256x1
  slices_S8x32x256_o6_9_0_S1x1x256 : S8x32x256.Slices ![6, 9, 0] S1x1x256
  slices_S256x256_o0_202_S256x1 : S256x256.Slices ![0, 202] S256x1
  slices_S8x32x256_o6_10_0_S1x1x256 : S8x32x256.Slices ![6, 10, 0] S1x1x256
  slices_S256x256_o0_203_S256x1 : S256x256.Slices ![0, 203] S256x1
  slices_S8x32x256_o6_11_0_S1x1x256 : S8x32x256.Slices ![6, 11, 0] S1x1x256
  slices_S256x256_o0_204_S256x1 : S256x256.Slices ![0, 204] S256x1
  slices_S8x32x256_o6_12_0_S1x1x256 : S8x32x256.Slices ![6, 12, 0] S1x1x256
  slices_S256x256_o0_205_S256x1 : S256x256.Slices ![0, 205] S256x1
  slices_S8x32x256_o6_13_0_S1x1x256 : S8x32x256.Slices ![6, 13, 0] S1x1x256
  slices_S256x256_o0_206_S256x1 : S256x256.Slices ![0, 206] S256x1
  slices_S8x32x256_o6_14_0_S1x1x256 : S8x32x256.Slices ![6, 14, 0] S1x1x256
  slices_S256x256_o0_207_S256x1 : S256x256.Slices ![0, 207] S256x1
  slices_S8x32x256_o6_15_0_S1x1x256 : S8x32x256.Slices ![6, 15, 0] S1x1x256
  slices_S256x256_o0_208_S256x1 : S256x256.Slices ![0, 208] S256x1
  slices_S8x32x256_o6_16_0_S1x1x256 : S8x32x256.Slices ![6, 16, 0] S1x1x256
  slices_S256x256_o0_209_S256x1 : S256x256.Slices ![0, 209] S256x1
  slices_S8x32x256_o6_17_0_S1x1x256 : S8x32x256.Slices ![6, 17, 0] S1x1x256
  slices_S256x256_o0_210_S256x1 : S256x256.Slices ![0, 210] S256x1
  slices_S8x32x256_o6_18_0_S1x1x256 : S8x32x256.Slices ![6, 18, 0] S1x1x256
  slices_S256x256_o0_211_S256x1 : S256x256.Slices ![0, 211] S256x1
  slices_S8x32x256_o6_19_0_S1x1x256 : S8x32x256.Slices ![6, 19, 0] S1x1x256
  slices_S256x256_o0_212_S256x1 : S256x256.Slices ![0, 212] S256x1
  slices_S8x32x256_o6_20_0_S1x1x256 : S8x32x256.Slices ![6, 20, 0] S1x1x256
  slices_S256x256_o0_213_S256x1 : S256x256.Slices ![0, 213] S256x1
  slices_S8x32x256_o6_21_0_S1x1x256 : S8x32x256.Slices ![6, 21, 0] S1x1x256
  slices_S256x256_o0_214_S256x1 : S256x256.Slices ![0, 214] S256x1
  slices_S8x32x256_o6_22_0_S1x1x256 : S8x32x256.Slices ![6, 22, 0] S1x1x256
  slices_S256x256_o0_215_S256x1 : S256x256.Slices ![0, 215] S256x1
  slices_S8x32x256_o6_23_0_S1x1x256 : S8x32x256.Slices ![6, 23, 0] S1x1x256
  slices_S256x256_o0_216_S256x1 : S256x256.Slices ![0, 216] S256x1
  slices_S8x32x256_o6_24_0_S1x1x256 : S8x32x256.Slices ![6, 24, 0] S1x1x256
  slices_S256x256_o0_217_S256x1 : S256x256.Slices ![0, 217] S256x1
  slices_S8x32x256_o6_25_0_S1x1x256 : S8x32x256.Slices ![6, 25, 0] S1x1x256
  slices_S256x256_o0_218_S256x1 : S256x256.Slices ![0, 218] S256x1
  slices_S8x32x256_o6_26_0_S1x1x256 : S8x32x256.Slices ![6, 26, 0] S1x1x256
  slices_S256x256_o0_219_S256x1 : S256x256.Slices ![0, 219] S256x1
  slices_S8x32x256_o6_27_0_S1x1x256 : S8x32x256.Slices ![6, 27, 0] S1x1x256
  slices_S256x256_o0_220_S256x1 : S256x256.Slices ![0, 220] S256x1
  slices_S8x32x256_o6_28_0_S1x1x256 : S8x32x256.Slices ![6, 28, 0] S1x1x256
  slices_S256x256_o0_221_S256x1 : S256x256.Slices ![0, 221] S256x1
  slices_S8x32x256_o6_29_0_S1x1x256 : S8x32x256.Slices ![6, 29, 0] S1x1x256
  slices_S256x256_o0_222_S256x1 : S256x256.Slices ![0, 222] S256x1
  slices_S8x32x256_o6_30_0_S1x1x256 : S8x32x256.Slices ![6, 30, 0] S1x1x256
  slices_S256x256_o0_223_S256x1 : S256x256.Slices ![0, 223] S256x1
  slices_S8x32x256_o6_31_0_S1x1x256 : S8x32x256.Slices ![6, 31, 0] S1x1x256
  inb_S8x256_S1x256_6_0 : ∀ a, (![6, 0] : Fin 2 → Nat) a + S1x256.size a ≤ S8x256.size a
  slices_S256x256_o0_224_S256x1 : S256x256.Slices ![0, 224] S256x1
  slices_S8x32x256_o7_0_0_S1x1x256 : S8x32x256.Slices ![7, 0, 0] S1x1x256
  slices_S256x256_o0_225_S256x1 : S256x256.Slices ![0, 225] S256x1
  slices_S8x32x256_o7_1_0_S1x1x256 : S8x32x256.Slices ![7, 1, 0] S1x1x256
  slices_S256x256_o0_226_S256x1 : S256x256.Slices ![0, 226] S256x1
  slices_S8x32x256_o7_2_0_S1x1x256 : S8x32x256.Slices ![7, 2, 0] S1x1x256
  slices_S256x256_o0_227_S256x1 : S256x256.Slices ![0, 227] S256x1
  slices_S8x32x256_o7_3_0_S1x1x256 : S8x32x256.Slices ![7, 3, 0] S1x1x256
  slices_S256x256_o0_228_S256x1 : S256x256.Slices ![0, 228] S256x1
  slices_S8x32x256_o7_4_0_S1x1x256 : S8x32x256.Slices ![7, 4, 0] S1x1x256
  slices_S256x256_o0_229_S256x1 : S256x256.Slices ![0, 229] S256x1
  slices_S8x32x256_o7_5_0_S1x1x256 : S8x32x256.Slices ![7, 5, 0] S1x1x256
  slices_S256x256_o0_230_S256x1 : S256x256.Slices ![0, 230] S256x1
  slices_S8x32x256_o7_6_0_S1x1x256 : S8x32x256.Slices ![7, 6, 0] S1x1x256
  slices_S256x256_o0_231_S256x1 : S256x256.Slices ![0, 231] S256x1
  slices_S8x32x256_o7_7_0_S1x1x256 : S8x32x256.Slices ![7, 7, 0] S1x1x256
  slices_S256x256_o0_232_S256x1 : S256x256.Slices ![0, 232] S256x1
  slices_S8x32x256_o7_8_0_S1x1x256 : S8x32x256.Slices ![7, 8, 0] S1x1x256
  slices_S256x256_o0_233_S256x1 : S256x256.Slices ![0, 233] S256x1
  slices_S8x32x256_o7_9_0_S1x1x256 : S8x32x256.Slices ![7, 9, 0] S1x1x256
  slices_S256x256_o0_234_S256x1 : S256x256.Slices ![0, 234] S256x1
  slices_S8x32x256_o7_10_0_S1x1x256 : S8x32x256.Slices ![7, 10, 0] S1x1x256
  slices_S256x256_o0_235_S256x1 : S256x256.Slices ![0, 235] S256x1
  slices_S8x32x256_o7_11_0_S1x1x256 : S8x32x256.Slices ![7, 11, 0] S1x1x256
  slices_S256x256_o0_236_S256x1 : S256x256.Slices ![0, 236] S256x1
  slices_S8x32x256_o7_12_0_S1x1x256 : S8x32x256.Slices ![7, 12, 0] S1x1x256
  slices_S256x256_o0_237_S256x1 : S256x256.Slices ![0, 237] S256x1
  slices_S8x32x256_o7_13_0_S1x1x256 : S8x32x256.Slices ![7, 13, 0] S1x1x256
  slices_S256x256_o0_238_S256x1 : S256x256.Slices ![0, 238] S256x1
  slices_S8x32x256_o7_14_0_S1x1x256 : S8x32x256.Slices ![7, 14, 0] S1x1x256
  slices_S256x256_o0_239_S256x1 : S256x256.Slices ![0, 239] S256x1
  slices_S8x32x256_o7_15_0_S1x1x256 : S8x32x256.Slices ![7, 15, 0] S1x1x256
  slices_S256x256_o0_240_S256x1 : S256x256.Slices ![0, 240] S256x1
  slices_S8x32x256_o7_16_0_S1x1x256 : S8x32x256.Slices ![7, 16, 0] S1x1x256
  slices_S256x256_o0_241_S256x1 : S256x256.Slices ![0, 241] S256x1
  slices_S8x32x256_o7_17_0_S1x1x256 : S8x32x256.Slices ![7, 17, 0] S1x1x256
  slices_S256x256_o0_242_S256x1 : S256x256.Slices ![0, 242] S256x1
  slices_S8x32x256_o7_18_0_S1x1x256 : S8x32x256.Slices ![7, 18, 0] S1x1x256
  slices_S256x256_o0_243_S256x1 : S256x256.Slices ![0, 243] S256x1
  slices_S8x32x256_o7_19_0_S1x1x256 : S8x32x256.Slices ![7, 19, 0] S1x1x256
  slices_S256x256_o0_244_S256x1 : S256x256.Slices ![0, 244] S256x1
  slices_S8x32x256_o7_20_0_S1x1x256 : S8x32x256.Slices ![7, 20, 0] S1x1x256
  slices_S256x256_o0_245_S256x1 : S256x256.Slices ![0, 245] S256x1
  slices_S8x32x256_o7_21_0_S1x1x256 : S8x32x256.Slices ![7, 21, 0] S1x1x256
  slices_S256x256_o0_246_S256x1 : S256x256.Slices ![0, 246] S256x1
  slices_S8x32x256_o7_22_0_S1x1x256 : S8x32x256.Slices ![7, 22, 0] S1x1x256
  slices_S256x256_o0_247_S256x1 : S256x256.Slices ![0, 247] S256x1
  slices_S8x32x256_o7_23_0_S1x1x256 : S8x32x256.Slices ![7, 23, 0] S1x1x256
  slices_S256x256_o0_248_S256x1 : S256x256.Slices ![0, 248] S256x1
  slices_S8x32x256_o7_24_0_S1x1x256 : S8x32x256.Slices ![7, 24, 0] S1x1x256
  slices_S256x256_o0_249_S256x1 : S256x256.Slices ![0, 249] S256x1
  slices_S8x32x256_o7_25_0_S1x1x256 : S8x32x256.Slices ![7, 25, 0] S1x1x256
  slices_S256x256_o0_250_S256x1 : S256x256.Slices ![0, 250] S256x1
  slices_S8x32x256_o7_26_0_S1x1x256 : S8x32x256.Slices ![7, 26, 0] S1x1x256
  slices_S256x256_o0_251_S256x1 : S256x256.Slices ![0, 251] S256x1
  slices_S8x32x256_o7_27_0_S1x1x256 : S8x32x256.Slices ![7, 27, 0] S1x1x256
  slices_S256x256_o0_252_S256x1 : S256x256.Slices ![0, 252] S256x1
  slices_S8x32x256_o7_28_0_S1x1x256 : S8x32x256.Slices ![7, 28, 0] S1x1x256
  slices_S256x256_o0_253_S256x1 : S256x256.Slices ![0, 253] S256x1
  slices_S8x32x256_o7_29_0_S1x1x256 : S8x32x256.Slices ![7, 29, 0] S1x1x256
  slices_S256x256_o0_254_S256x1 : S256x256.Slices ![0, 254] S256x1
  slices_S8x32x256_o7_30_0_S1x1x256 : S8x32x256.Slices ![7, 30, 0] S1x1x256
  slices_S256x256_o0_255_S256x1 : S256x256.Slices ![0, 255] S256x1
  slices_S8x32x256_o7_31_0_S1x1x256 : S8x32x256.Slices ![7, 31, 0] S1x1x256
  inb_S8x256_S1x256_7_0 : ∀ a, (![7, 0] : Fin 2 → Nat) a + S1x256.size a ≤ S8x256.size a
  transposes_S64x256_S256x64_1_0 : S64x256.Transposes [1, 0] S256x64
  concatenates_S256x1024_S256x64_S256x1088_d1 : Shape.Concatenates [S256x1024, S256x64] S256x1088 1
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x2048.size a
  hwx0_1 : ∀ i : grid0.Coords, EltTy.bits .f32 = 32 ∨ (Rect.block (s := S1024x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x2048.size a
  hwx0_2 : ∀ i : grid0.Coords, EltTy.bits .f32 = 32 ∨ (Rect.block (s := S256x2048) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x2048.size a
  hwx1_0 : ∀ i : grid1.Coords, EltTy.bits .f32 = 32 ∨ (Rect.block (s := S256x2048) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x32x256.size a ≤ S64x32x256.size a
  hwx1_1 : ∀ i : grid1.Coords, EltTy.bits .f32 = 32 ∨ (Rect.block (s := S64x32x256) S8x32x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S64x256.size a
  hwx1_2 : ∀ i : grid1.Coords, EltTy.bits .f32 = 32 ∨ (Rect.block (s := S64x256) S8x256.size (cc1_transform_2 i) (hinb1_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x32x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S8x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x1024 : Shape := ⟨2, ![256, 1024]⟩
abbrev S1024x64x32 : Shape := ⟨3, ![1024, 64, 32]⟩
abbrev S1024x2048 : Shape := ⟨2, ![1024, 2048]⟩
abbrev S256x2048 : Shape := ⟨2, ![256, 2048]⟩
abbrev S256x64x32 : Shape := ⟨3, ![256, 64, 32]⟩
abbrev S256x1x64x32 : Shape := ⟨4, ![256, 1, 64, 32]⟩
abbrev S1x256x64x32 : Shape := ⟨4, ![1, 256, 64, 32]⟩
abbrev S256x256x64x32 : Shape := ⟨4, ![256, 256, 64, 32]⟩
abbrev S_ : Shape := ⟨0, ![]⟩
abbrev S256x256x64 : Shape := ⟨3, ![256, 256, 64]⟩
abbrev S256x64 : Shape := ⟨2, ![256, 64]⟩
abbrev S256x1088 : Shape := ⟨2, ![256, 1088]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x64x32, .f32⟩
  | .hbm, ⟨2, _⟩ => ⟨S1024x2048, .f32⟩
  | .hbm, ⟨3, _⟩ => ⟨S256x2048, .f32⟩
  | .hbm, ⟨4, _⟩ => ⟨S256x64x32, .f32⟩
  | .hbm, ⟨5, _⟩ => ⟨S256x1x64x32, .f32⟩
  | .hbm, ⟨6, _⟩ => ⟨S1x256x64x32, .f32⟩
  | .hbm, ⟨7, _⟩ => ⟨S256x256x64x32, .f32⟩
  | .hbm, ⟨8, _⟩ => ⟨S256x256x64x32, .f32⟩
  | .hbm, ⟨9, _⟩ => ⟨S256x256x64x32, .f32⟩
  | .hbm, ⟨10, _⟩ => ⟨S256x256x64x32, .f32⟩
  | .hbm, ⟨11, _⟩ => ⟨S_, .f32⟩
  | .hbm, ⟨12, _⟩ => ⟨S256x256x64, .f32⟩
  | .hbm, ⟨13, _⟩ => ⟨S256x256x64, .f32⟩
  | .hbm, ⟨14, _⟩ => ⟨S256x256x64, .f32⟩
  | .hbm, ⟨15, _⟩ => ⟨S_, .f32⟩
  | .hbm, ⟨16, _⟩ => ⟨S256x64, .f32⟩
  | .hbm, ⟨17, _⟩ => ⟨S_, .f32⟩
  | .hbm, ⟨18, _⟩ => ⟨S256x64, .f32⟩
  | .hbm, ⟨19, _⟩ => ⟨S256x64, .f32⟩
  | .hbm, ⟨20, _⟩ => ⟨S256x1088, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x64x32_S1024x2048 : S1024x64x32.ShapeCasts S1024x2048
  shapeCasts_S256x2048_S256x64x32 : S256x2048.ShapeCasts S256x64x32
  bcast_S256x64x32_S256x1x64x32_0_2_3 : S256x64x32.BroadcastsInDim S256x1x64x32 (![0, 2, 3] : Fin 3 → Fin S256x1x64x32.rank)
  bcast_S256x64x32_S1x256x64x32_1_2_3 : S256x64x32.BroadcastsInDim S1x256x64x32 (![1, 2, 3] : Fin 3 → Fin S1x256x64x32.rank)
  bcast_S256x1x64x32_S256x256x64x32_0_1_2_3 : S256x1x64x32.BroadcastsInDim S256x256x64x32 (![0, 1, 2, 3] : Fin 4 → Fin S256x256x64x32.rank)
  bcast_S1x256x64x32_S256x256x64x32_0_1_2_3 : S1x256x64x32.BroadcastsInDim S256x256x64x32 (![0, 1, 2, 3] : Fin 4 → Fin S256x256x64x32.rank)
  reducesTo_S256x256x64x32_S256x256x64_d3 : S256x256x64x32.ReducesTo [3] S256x256x64
  h_S_ : 0 < S_.numel
  reducesTo_S256x256x64_S256x64_d1 : S256x256x64.ReducesTo [1] S256x64
  bcast_S_S256x64 : S_.BroadcastsInDim S256x64 (![] : Fin 0 → Fin S256x64.rank)
  concatenates_S256x1024_S256x64_S256x1088_d1 : Shape.Concatenates [S256x1024, S256x64] S256x1088 1
  dot_S256x1024_S1024x2048_S256x2048_1_0_0_1_n_n_wf : DotDims.WF S256x1024 S1024x2048 S256x2048 [1] [0] [0] [1] [] []

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

class Facts : Prop extends Facts₀ where

variable [Facts]
-- ==== Proof.KRun.lean ====
/-
  The kernel program's run with its result named.

  The program is five segments — a reshape, the projection region, a reshape and a transpose, the discrimination
  region, a transpose and a concatenation — and the buffers' contents at each boundary are a fold from the launch
  memory (`W0` … `W5`).  Every weakly fair execution terminates without fault in a state whose unscoped buffers hold
  the last boundary's contents; read at the result buffer this names the result, read at the two arguments it says
  they are unchanged.
-/
import proofs.«124473_j72430328481231_2_alg».proof.Proof.Gen.KernelIdeal.Frame

set_option maxRecDepth 16384

noncomputable section

namespace Cert.L1Disc.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and the two argument arrays as launched. -/
theorem run_named : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c)⟩)

end Cert.L1Disc.KRun

end
-- ==== Proof.Spec.lean ====
/-
  The mathematics both programs compute, stated once over literal shapes.

  From a projected matrix `M : [256, 2048]`, read as 64 channels of 32 features per row (`M(i, 32 b + c)`), the
  minibatch discrimination of row `i` in channel `b` is

      disc M (i, b) = (∑ j, exp (−∑ c, |M(i, 32 b + c) − M(j, 32 b + c)|)) − 1 ,

  the sum over all 256 rows `j` of the exponential of minus the L1 distance between the two rows' feature vectors in
  that channel, less one (the term `j = i`). On the extended reals `|d|` is `max d (−d)`.  The one law the two
  programs differ by is the symmetry of the L1 cell, `|a − b| = |b − a|`, which holds for every pair of extended
  reals (at `⊤ − ⊤` and `⊥ − ⊥` both differences are `⊥` and both absolute values `⊤`).
-/
import Idealize.ShloMosaic.PureOps.Ideal
import Idealize.ShloMosaic.PureOps.Ideal.Laws
import Idealize.ShloMosaic.Lib.ValueIdx

noncomputable section

open scoped BigOperators

namespace Cert.L1Disc

open Idealize.ShloMosaic Idealize.ShloMosaic.ValueIdx

/-- The absolute value of a difference of extended reals does not depend on the order of the two. -/
theorem abs_sub_comm (a b : EReal) : max (a - b) (-(a - b)) = max (b - a) (-(b - a)) := by
  induction a <;> induction b
  case coe.coe x y =>
    rw [← EReal.coe_sub, ← EReal.coe_sub, ← EReal.coe_neg, ← EReal.coe_neg, neg_sub, neg_sub, max_comm]
  all_goals first | rfl | simp

/-- The L1 cell: `|M(i, 32 b + c) − M(j, 32 b + c)|`. -/
def cell (M : FVec Ideal ⟨2, ![256, 2048]⟩ .f32) (i j : Fin 256) (b : Fin 64) (c : Fin 32) : EReal :=
  max (M (ix2 i ⟨32 * b.val + c.val, by omega⟩) - M (ix2 j ⟨32 * b.val + c.val, by omega⟩))
    (-(M (ix2 i ⟨32 * b.val + c.val, by omega⟩) - M (ix2 j ⟨32 * b.val + c.val, by omega⟩)))

/-- The L1 cell is symmetric in the two rows. -/
theorem cell_comm (M : FVec Ideal ⟨2, ![256, 2048]⟩ .f32) (i j : Fin 256) (b : Fin 64) (c : Fin 32) :
    cell M i j b c = cell M j i b c := abs_sub_comm _ _

/-- The discrimination of row `i` in channel `b`, the sum taken over the SECOND row of the cell. -/
def disc (M : FVec Ideal ⟨2, ![256, 2048]⟩ .f32) : FVec Ideal ⟨2, ![256, 64]⟩ .f32 := fun i =>
  (∑ j : Fin 256, Ideal.exp (-(∑ c : Fin 32, cell M (i 0) j (i 1) c))) - Ideal.ofBits .f32 0x3F800000#32

/-- The same with the sum taken over the FIRST row of the cell: what a program computes that lays the summed row
    along the other axis of its tile. -/
theorem disc_swap (M : FVec Ideal ⟨2, ![256, 2048]⟩ .f32) (i : (⟨2, ![256, 64]⟩ : Shape).Idx) :
    disc M i = (∑ j : Fin 256, Ideal.exp (-(∑ c : Fin 32, cell M j (i 0) (i 1) c))) - Ideal.ofBits .f32 0x3F800000#32 := by
  unfold disc
  refine congrArg (· - _) (Finset.sum_congr rfl fun j _ => congrArg (fun s => Ideal.exp (-s)) ?_)
  exact Finset.sum_congr rfl fun c _ => cell_comm M _ _ _ _

end Cert.L1Disc

end
-- ==== Proof.ProjValue.lean ====
/-
  The first region of the kernel program is a matrix product. Its output array [256, 2048] is written in two
  column blocks of width 1024; the block of grid point t is x · Tf[:, 1024 t … 1024 t + 1023], where x is the
  first argument [256, 1024] and Tf the second argument [1024, 64, 32] read as a matrix [1024, 2048]. Entry (p, n)
  of the array after the region is therefore ∑ k : Fin 1024, x(p, k) · Tf(k, n): the reference's projected matrix.

  In order: the two arrays as the region finds them; the body's payload at an index as that finite sum (rounding
  to bf16 is the identity on the extended reals); each input block read entry by entry; what a point writes back;
  the two blocks cover the array; the array after the region.
-/
import proofs.«124473_j72430328481231_2_alg».proof.Proof.Gen.KernelIdeal.Frame
import proofs.«124473_j72430328481231_2_alg».proof.Proof.Gen.ReferenceIdeal.Read
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.L1Disc.Proj

open Idealize.ShloMosaic Idealize.ShloMosaic.TcCoe Idealize.SL.Sem Cert.KernelIdeal Cert.KernelIdeal.Gen
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The left factor's array at the region's entry is the launch contents. -/
theorem entry_x (c : Dev nD) : V1 m ρ c main_arg0 = m ((c : Thread nD τ).loc main_arg0) := by
  show StableHlo.after hostOps0 _ (Proc.devRef .tc main_arg0) = _
  after_results

/-- The right factor's array at the region's entry is the reshape of the launch contents. -/
theorem entry_T (c : Dev nD) : (V1 m ρ c main_v0 : S1024x2048.Idx → EReal)
    = shapeCast _ (m ((c : Thread nD τ).loc main_arg1)) shapeCasts_S1024x64x32_S1024x2048 := by
  show StableHlo.after hostOps0 _ (Proc.devRef .tc main_v0) = _
  after_results
  rfl

/-- Row coordinate of the left factor's index in the contraction: the output's row. -/
theorem lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The body's payload at an index: the product of the two blocks, entry (p, q) the sum over the 1024 shared
    coordinates (the roundings to bf16 are the identity on the extended reals, the same-shape cast is the identity). -/
theorem pay_apply (x0 : Vec Ideal S256x1024 .f32) (x1 : Vec Ideal S1024x1024 .f32) (p : Fin 256) (q : Fin 1024) :
    k0_pay1 x0 x1 (ix2 p q) = ∑ k : Fin 1024, x0 (ix2 p k) * x1 (ix2 k q) := by
  unfold k0_pay1
  rw [shapeCast_self]
  refine (Ideal.matmul_constant_zero_apply dot_S256x1024_S1024x1024_S256x1024_1_0_0_1_n_n none _ _ (ix2 p q)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_0 _ _).trans hk
    | ⟨1, _⟩ => exact rhs_1 _ _)
  rw [el, er, truncf_apply, truncf_apply]

/-- The printed index maps over the two grid points: the left factor's window stays at block (0, 0); the right
    factor's and the output's move along the columns with the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The reference's two index maps at explicit coordinates. -/
theorem lidx_ix (p : Fin 256) (n : Fin 2048) (k : Fin 1024) :
    Cert.ReferenceIdeal.Read.lidx_main_v1 (ix2 p n) k = ix2 p k :=
  funext fun a => Fin.ext (by match a with | ⟨0, _⟩ => rfl | ⟨1, _⟩ => rfl)
theorem ridx_ix (p : Fin 256) (n : Fin 2048) (k : Fin 1024) :
    Cert.ReferenceIdeal.Read.ridx_main_v1 (ix2 p n) k = ix2 k n :=
  funext fun a => Fin.ext (by match a with | ⟨0, _⟩ => rfl | ⟨1, _⟩ => rfl)

/-- The left factor's block at any point is the whole argument: entry (p, k). -/
theorem blk_x (c : Dev nD) (t : Fin cfg0.N) (p : Fin 256) (k : Fin 1024) :
    (iblk0 (V1 m ρ) c 0 t : Vec Ideal S256x1024 .f32) (ix2 p k)
      = (m ((c : Thread nD τ).loc main_arg0) : S256x1024.Idx → EReal) (ix2 p k) := by
  obtain ⟨e0, e1, -, -, -, -⟩ := idx_facts t
  unfold iblk0
  rw [View.read_apply]
  show V1 m ρ c main_arg0 (((cfg0.win 0).blk t).view.emb (ix2 p k)) = _
  rw [entry_x]
  refine congrArg _ (funext fun a => Fin.ext ?_)
  match a with
  | ⟨0, _⟩ => show win0_0.index t (0 : Fin 2) * 256 + 1 * p.val = p.val; omega
  | ⟨1, _⟩ => show win0_0.index t (1 : Fin 2) * 1024 + 1 * k.val = k.val; omega

/-- The right factor's block at point t is columns 1024 t … 1024 t + 1023 of the reshaped argument: entry (k, q). -/
theorem blk_T (c : Dev nD) (t : Fin cfg0.N) (k : Fin 1024) (q : Fin 1024) (n : Fin 2048) (hn : n.val = t.val * 1024 + q.val) :
    (iblk0 (V1 m ρ) c 1 t : Vec Ideal S1024x1024 .f32) (ix2 k q)
      = Cert.ReferenceIdeal.Read.val_main_v0 (F := Ideal) (m ((c : Thread nD τ).loc main_arg1)) (ix2 k n) := by
  obtain ⟨-, -, e2, e3, -, -⟩ := idx_facts t
  unfold iblk0
  rw [View.read_apply]
  show (V1 m ρ c main_v0 : S1024x2048.Idx → EReal) (((cfg0.win 1).blk t).view.emb (ix2 k q)) = _
  rw [entry_T]
  unfold Cert.ReferenceIdeal.Read.val_main_v0
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * q.val = n.val; omega

/-- What point t writes back is block t of the product array x · Tf. -/
theorem flushed_eq (c : Dev nD) (t : Fin cfg0.N) :
    (dat0 (V1 m ρ) c).flushed 2 t = ((cfg0.win 2).blk t).view.read (Elt Ideal)
      (Cert.ReferenceIdeal.Read.val_main_v1 (F := Ideal) (m ((c : Thread nD τ).loc main_arg0)) (m ((c : Thread nD τ).loc main_arg1))) := by
  show (cfg0.win 2).cut (grid0.coords t) ((dat0 (V1 m ρ) c).after 2 t) = _
  rw [after0_2]
  unfold out0_2
  rw [View.canon_unit_zero hz]
  simp only [View.ld_unit_zero (S := S256x1024) hz, View.ld_unit_zero (S := S1024x1024) hz]
  obtain ⟨-, -, -, -, e4, e5⟩ := idx_facts t
  funext j
  have hj0 : (j 0).val < 256 := (j 0).isLt
  have hj1 : (j 1).val < 1024 := (j 1).isLt
  have hx : (win0 2).xinj (grid0.coords t) j = ix2 (⟨(j 0).val, hj0⟩ : Fin 256) (⟨(j 1).val, hj1⟩ : Fin 1024) :=
    funext fun a => by match a with | ⟨0, _⟩ => rfl | ⟨1, _⟩ => rfl
  have ht : t.val < 2 := t.isLt
  have hn : t.val * 1024 + (j 1).val < 2048 := by omega
  have hy : ((cfg0.win 2).blk t).view.emb j = ix2 (⟨(j 0).val, hj0⟩ : Fin 256) (⟨t.val * 1024 + (j 1).val, hn⟩ : Fin 2048) :=
    funext fun a => Fin.ext (by
      match a with
      | ⟨0, _⟩ => show win0_2.index t (0 : Fin 2) * 256 + 1 * (j 0).val = (j 0).val; omega
      | ⟨1, _⟩ => show win0_2.index t (1 : Fin 2) * 1024 + 1 * (j 1).val = t.val * 1024 + (j 1).val; omega)
  show k0_pay1 (iblk0 (V1 m ρ) c 0 t) (iblk0 (V1 m ρ) c 1 t) ((win0 2).xinj (grid0.coords t) j) = _
  rw [hx, View.read_apply, hy]
  refine (pay_apply (iblk0 (V1 m ρ) c 0 t) (iblk0 (V1 m ρ) c 1 t) _ _).trans ?_
  show _ = Cert.ReferenceIdeal.Read.val_main_v1 (F := Ideal) _ _ _
  rw [Cert.ReferenceIdeal.Read.val_main_v1_apply]
  refine Finset.sum_congr rfl fun k _ => ?_
  rw [blk_x m ρ c t, blk_T m ρ c t k ⟨(j 1).val, hj1⟩ ⟨t.val * 1024 + (j 1).val, hn⟩ rfl, lidx_ix, ridx_ix]

/-- An index of the output array is in point t's block iff each coordinate is in the block's range on its axis. -/
theorem mem_blk (t : Fin cfg0.N) (i : S256x2048.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v1).slice (win0_2.rect t)).set ↔ _
  rw [View.set_slice_whole, Rect.mem_set_unit]
  exact Iff.rfl

/-- Every index of the output array is in some point's block: column n is in the block of point n / 1024. -/
theorem cover (i : S256x2048.Idx) :
    ∃ t : Fin cfg0.N, (cfg0.win 2).flush t = true ∧ i ∈ ((cfg0.win 2).blk t).view.set := by
  have hi0 : (i 0).val < 256 := (i 0).isLt
  have hi1 : (i 1).val < 2048 := (i 1).isLt
  obtain ⟨t, htv⟩ : ∃ t : Fin cfg0.N, t.val = (i 1).val / 1024 :=
    ⟨⟨(i 1).val / 1024, by show (i 1).val / 1024 < 2; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- The output array after the first region is the product x · Tf, the reference's projected matrix. -/
theorem proj_final (c : Dev nD) :
    (dat0 (F := Ideal) (V1 m ρ) c).arrAt 2 cfg0.N
      = Cert.ReferenceIdeal.Read.val_main_v1 (F := Ideal) (m ((c : Thread nD τ).loc main_arg0)) (m ((c : Thread nD τ).loc main_arg1)) :=
  (dat0 (V1 m ρ) c).arrAt_eq_of_cover 2 _ (fun t _ => flushed_eq m ρ c t) cover

end Cert.L1Disc.Proj

end
-- ==== Proof.Body.lean ====
/-
  The second kernel's body, read at an index.

  At one grid point the body holds a tile `x0 : [256, 256]` — 256 rows of the projected matrix, the 8 × 32 feature
  columns of the point's eight channels — and the block `x1 : [8, 32, 256]` of the same numbers transposed (channel,
  feature, row).  For each channel `ch` it accumulates, over the 32 features `c` in turn and starting from zero, the
  [256, 256] tile whose entry `(p, q)` is `|x0(p, 32 ch + c) − x1(ch, c, q)|`: column `32 ch + c` of `x0` spread
  along the lanes minus row `(ch, c)` of `x1` spread along the sublanes.  It then negates the tile (as `0 − ·`),
  exponentiates it, sums every column over the rows `p`, subtracts one, and stores the 256 sums as row `ch` of the
  output block.  So the block the body leaves is, at `(ch, q)`,

      (∑ p, exp (−∑ c < 32, |x0(p, 32 ch + c) − x1(ch, c, q)|)) − 1        (`blockRow`, `out1_2_apply`).

  The 32 steps are written out one after the other in the body, so each stored row is a left-nested sum of 32 terms of
  one shape; `term_apply` reads one such term at `(p, q)` whatever its literal offsets, `finish_apply` reads the
  closing steps, and the sum over `Finset.range 32` unrolls to the same left-nested sum.
-/
import proofs.«124473_j72430328481231_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.L1Disc.Body

open Idealize.ShloMosaic Idealize.ShloMosaic.ValueIdx Cert.KernelIdeal Cert.KernelIdeal.Gen

/-- Column `k` of the tile of projected rows at row `p`, total in `k`. -/
def colAt (v1 : FVec Ideal S256x256 .f32) (p : Fin 256) (k : ℕ) : EReal :=
  if h : k < 256 then v1 (ix2 p ⟨k, h⟩) else 0

/-- Entry `(a, b, q)` of the transposed block, total in `a` and `b`. -/
def rowAt (v3 : FVec Ideal S8x32x256 .f32) (a b : ℕ) (q : Fin 256) : EReal :=
  if h : a < 8 ∧ b < 32 then v3 (ix3 ⟨a, h.1⟩ ⟨b, h.2⟩ q) else 0

/-- One L1 term of the tile at `(p, q)`. -/
def tcell (v1 : FVec Ideal S256x256 .f32) (v3 : FVec Ideal S8x32x256 .f32) (p q : Fin 256) (k a b : ℕ) : EReal :=
  max (colAt v1 p k - rowAt v3 a b q) (-(colAt v1 p k - rowAt v3 a b q))

theorem col_apply (k : ℕ) (hk : S256x256.Slices ![0, k] S256x1) (h1 : S256x1.ShapeCasts S256) (h2 : S256.ShapeCasts S256x1)
    (h3 : S256x1.ShapeCasts S256x1) (h4 : S256x1.Broadcasts S256x256) (v1 : FVec Ideal S256x256 .f32) (i : S256x256.Idx) :
    broadcastTo S256x256 (shapeCast S256x1 (shapeCast S256x1 (shapeCast S256 (extractStridedSlice S256x1 ![0, k] v1 hk) h1) h2) h3) h4 i
      = colAt v1 (i 0) k := by
  have hk256 : k < 256 := by
    obtain ⟨h, hh⟩ := hk
    have h' : k + 1 ≤ 256 := hh 1
    omega
  rw [shapeCast_self, shapeCast_shapeCast]
  refine (broadcastTo_apply _ h4 i (ix2 (i 0) (0 : Fin 1)) (fun a => ?_)).trans ?_
  · match a with
    | ⟨0, _⟩ => show (i 0).val = if (256 : ℕ) = 1 then 0 else (i 0).val; rw [if_neg (by decide)]
    | ⟨1, _⟩ => show 0 = if (1 : ℕ) = 1 then 0 else (i 1).val; rw [if_pos rfl]
  · refine (extractStridedSlice_apply _ v1 hk _ (ix2 (i 0) ⟨k, hk256⟩) (fun a => ?_)).trans ?_
    · match a with
      | ⟨0, _⟩ => show (i 0).val = 0 + (i 0).val; omega
      | ⟨1, _⟩ => show k = k + 0; omega
    · unfold colAt; rw [dif_pos hk256]

theorem row_apply (a b : ℕ) (ho : S8x32x256.Slices ![a, b, 0] S1x1x256) (g1 : S1x1x256.ShapeCasts S256) (g2 : S256.ShapeCasts S1x256)
    (g3 : S1x256.ShapeCasts S1x256) (g4 : S1x256.Broadcasts S256x256) (v3 : FVec Ideal S8x32x256 .f32) (i : S256x256.Idx) :
    broadcastTo S256x256 (shapeCast S1x256 (shapeCast S1x256 (shapeCast S256 (extractStridedSlice S1x1x256 ![a, b, 0] v3 ho) g1) g2) g3) g4 i
      = rowAt v3 a b (i 1) := by
  have hab : a < 8 ∧ b < 32 := by
    obtain ⟨h, hh⟩ := ho
    have h0 : a + 1 ≤ 8 := hh 0
    have h1 : b + 1 ≤ 32 := hh 1
    omega
  rw [shapeCast_self]
  refine (broadcastTo_apply _ g4 i (ix2 (0 : Fin 1) (i 1)) (fun c => ?_)).trans ?_
  · match c with
    | ⟨0, _⟩ => show 0 = if (1 : ℕ) = 1 then 0 else (i 0).val; rw [if_pos rfl]
    | ⟨1, _⟩ => show (i 1).val = if (256 : ℕ) = 1 then 0 else (i 1).val; rw [if_neg (by decide)]
  · refine (shapeCast_apply _ g2 _ (ix1 (i 1)) ?_).trans ?_
    · rw [Shape.rowMajor_val_one, Shape.rowMajor_val_two]; show (i 1).val = 0 * 256 + (i 1).val; omega
    · refine (shapeCast_apply _ g1 _ (ix3 (0 : Fin 1) (0 : Fin 1) (i 1)) ?_).trans ?_
      · rw [Shape.rowMajor_val_three, Shape.rowMajor_val_one]; show (0 * 1 + 0) * 256 + (i 1).val = (i 1).val; omega
      · refine (extractStridedSlice_apply _ v3 ho _ (ix3 ⟨a, hab.1⟩ ⟨b, hab.2⟩ (i 1)) (fun c => ?_)).trans ?_
        · match c with
          | ⟨0, _⟩ => show a = a + 0; omega
          | ⟨1, _⟩ => show b = b + 0; omega
          | ⟨2, _⟩ => show (i 1).val = 0 + (i 1).val; omega
        · unfold rowAt; rw [dif_pos hab]

/-- One unrolled step's term — the column slice broadcast along the lanes minus the row slice broadcast along the
    sublanes, in absolute value — read at `(p, q)`. -/
theorem term_apply (k : ℕ) (hk : S256x256.Slices ![0, k] S256x1) (h1 : S256x1.ShapeCasts S256) (h2 : S256.ShapeCasts S256x1)
    (h3 : S256x1.ShapeCasts S256x1) (h4 : S256x1.Broadcasts S256x256)
    (a b : ℕ) (ho : S8x32x256.Slices ![a, b, 0] S1x1x256) (g1 : S1x1x256.ShapeCasts S256) (g2 : S256.ShapeCasts S1x256)
    (g3 : S1x256.ShapeCasts S1x256) (g4 : S1x256.Broadcasts S256x256)
    (v1 : FVec Ideal S256x256 .f32) (v3 : FVec Ideal S8x32x256 .f32) (i : S256x256.Idx) :
    absf (subf (broadcastTo S256x256 (shapeCast S256x1 (shapeCast S256x1 (shapeCast S256 (extractStridedSlice S256x1 ![0, k] v1 hk) h1) h2) h3) h4)
      (broadcastTo S256x256 (shapeCast S1x256 (shapeCast S1x256 (shapeCast S256 (extractStridedSlice S1x1x256 ![a, b, 0] v3 ho) g1) g2) g3) g4)) i
      = tcell v1 v3 (i 0) (i 1) k a b := by
  show max (_ - _) (-(_ - _)) = _
  rw [col_apply, row_apply]
  rfl

/-- The closing steps of one channel — negate, exponentiate, sum each column of the tile over its rows, subtract one,
    lay the result out as one output row — read at lane `q`. -/
theorem finish_apply (acc : FVec Ideal S256x256 .f32) (hr : S256x256.Reduces [0] S256) (g : S256.ShapeCasts S1x256)
    (x : S1x256.Idx) :
    shapeCast S1x256 (subf (multiReduction .add [0] S256 (exp (subf (broadcast S256x256 (Scalar.ofBits (F := Ideal) .f32 0x00000000#32)) acc)) 0x00000000#32 hr (.inl rfl) rfl)
      (broadcast S256 (Scalar.ofBits (F := Ideal) .f32 0x3F800000#32))) g x
      = (∑ p : Fin 256, Ideal.exp (Ideal.ofBits .f32 0x00000000#32 - acc (ix2 p (x 1)))) - Ideal.ofBits .f32 0x3F800000#32 := by
  refine (shapeCast_apply _ g x (ix1 (x 1)) ?_).trans ?_
  · rw [Shape.rowMajor_val_one, Shape.rowMajor_val_two]
    have h0 : (x 0).val < 1 := (x 0).isLt
    show (x 1).val = (x 0).val * 256 + (x 1).val; omega
  · show multiReduction .add [0] S256 _ 0x00000000#32 hr (.inl rfl) rfl (ix1 (x 1)) - _ = _
    refine congrArg (· - _) ?_
    refine (Ideal.multiReduction_add_single _ 0x00000000#32 hr (.inl rfl) rfl (ix1 (x 1))).trans ?_
    refine Finset.sum_congr rfl fun p _ => ?_
    have e : hr.lift (ix1 (x 1)) p = ix2 p (x 1) := funext fun c => Fin.ext (by
      match c with
      | ⟨0, _⟩ => simp [Shape.Reduces.lift_val, Shape.Reduces.liftVal]
      | ⟨1, _⟩ => simp [Shape.Reduces.lift_val, Shape.Reduces.liftVal])
    rw [e]
    rfl

/-- What one channel's output row holds at lane `q`, from the two loaded blocks: for channel `ch` of the block, the sum
    over the tile's rows `p` of `exp (−∑ c, |x0(p, 32 ch + c) − x1(ch, c, q)|)`, less one. -/
def blockRow (x0 : FVec Ideal S256x256 .f32) (x1 : FVec Ideal S8x32x256 .f32) (ch : ℕ) (q : Fin 256) : EReal :=
  (∑ p : Fin 256, Ideal.exp (-(∑ c ∈ Finset.range 32, tcell x0 x1 p q (32 * ch + c) ch c)))
    - Ideal.ofBits .f32 0x3F800000#32

theorem k1_pay2_eq (v : Vec Ideal S256x256 .f32) : k1_pay2 v = v := by unfold k1_pay2; exact shapeCast_self _ _
theorem k1_pay3_eq (v : Vec Ideal S8x32x256 .f32) : k1_pay3 v = v := by unfold k1_pay3; exact shapeCast_self _ _

theorem hz2 : (![0, 0] : Fin 2 → Nat) = fun _ => 0 := funext fun a => by fin_cases a <;> rfl
theorem hz3 : (![0, 0, 0] : Fin 3 → Nat) = fun _ => 0 := funext fun a => by fin_cases a <;> rfl

/-- A piece stored through the one-row rectangle at row `ch` whose payload is channel `ch`'s row is the block's
    function read through that rectangle. -/
theorem piece_ok (x0 : FVec Ideal S256x256 .f32) (x1 : FVec Ideal S8x32x256 .f32) (ch : ℕ) (inb : ∀ a, (![ch, 0] : Fin 2 → ℕ) a + S1x256.size a ≤ S8x256.size a)
    (pay : S1x256.Idx → EReal) (hpay : ∀ x : S1x256.Idx, pay x = blockRow x0 x1 ch (x 1)) :
    ∀ x : (Rect.unit (s := S8x256) ![ch, 0] S1x256.size inb).shape.Idx,
      pay x = (fun y : S8x256.Idx => blockRow x0 x1 (y 0).val (y 1)) ((Rect.unit (s := S8x256) ![ch, 0] S1x256.size inb).emb x) := by
  intro x
  rw [hpay]
  have h0 : (x 0).val < 1 := (x 0).isLt
  have e0 : (((Rect.unit (s := S8x256) ![ch, 0] S1x256.size inb).emb x) 0).val = ch := by
    show ch + 1 * (x 0).val = ch; omega
  have e1 : ((Rect.unit (s := S8x256) ![ch, 0] S1x256.size inb).emb x) 1 = x 1 := Fin.ext (by
    show 0 + 1 * (x 1).val = (x 1).val; omega)
  show _ = blockRow x0 x1 _ _
  rw [e0, e1]

set_option maxHeartbeats 4000000 in
/-- The output block the body leaves, read at `(ch, q)`: its eight one-row stores, each an unrolled 32-step sum of L1
    terms, negated, exponentiated, summed down the tile's columns, less one. -/
theorem out1_2_apply (x0 : Vec Ideal S256x256 .f32) (x1 : Vec Ideal S8x32x256 .f32) (y : S8x256.Idx) :
    out1_2 (F := Ideal) x0 x1 y = blockRow x0 x1 (y 0).val (y 1) := by
  unfold out1_2
  refine View.canon_apply_of_pieces (Val := Elt Ideal) (fun y : S8x256.Idx => blockRow x0 x1 (y 0).val (y 1)) _ ?_ y (cover1_2 _ _ _ _ _ _ _ _ y)
  intro p hp
  simp only [List.mem_cons, List.not_mem_nil, or_false] at hp
  rcases hp with rfl | rfl | rfl | rfl | rfl | rfl | rfl | rfl
  · refine piece_ok x0 x1 7 Facts₀.inb_S8x256_S1x256_7_0 _ (fun x => ?_)
    (simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay2_eq, k1_pay3_eq, View.ld_unit_zero (S := S256x256) hz2, View.ld_unit_zero (S := S8x32x256) hz3]
     rw [finish_apply]
     simp only [addf_apply, term_apply, broadcast_apply, Ideal.ofBits_def, Ideal.ofBits_zero_f32, zero_add, zero_sub, blockRow,
       Finset.sum_range_succ, Finset.sum_range_zero, Nat.reduceMul, Nat.reduceAdd])
  · refine piece_ok x0 x1 6 Facts₀.inb_S8x256_S1x256_6_0 _ (fun x => ?_)
    (simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay2_eq, k1_pay3_eq, View.ld_unit_zero (S := S256x256) hz2, View.ld_unit_zero (S := S8x32x256) hz3]
     rw [finish_apply]
     simp only [addf_apply, term_apply, broadcast_apply, Ideal.ofBits_def, Ideal.ofBits_zero_f32, zero_add, zero_sub, blockRow,
       Finset.sum_range_succ, Finset.sum_range_zero, Nat.reduceMul, Nat.reduceAdd])
  · refine piece_ok x0 x1 5 Facts₀.inb_S8x256_S1x256_5_0 _ (fun x => ?_)
    (simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay2_eq, k1_pay3_eq, View.ld_unit_zero (S := S256x256) hz2, View.ld_unit_zero (S := S8x32x256) hz3]
     rw [finish_apply]
     simp only [addf_apply, term_apply, broadcast_apply, Ideal.ofBits_def, Ideal.ofBits_zero_f32, zero_add, zero_sub, blockRow,
       Finset.sum_range_succ, Finset.sum_range_zero, Nat.reduceMul, Nat.reduceAdd])
  · refine piece_ok x0 x1 4 Facts₀.inb_S8x256_S1x256_4_0 _ (fun x => ?_)
    (simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay2_eq, k1_pay3_eq, View.ld_unit_zero (S := S256x256) hz2, View.ld_unit_zero (S := S8x32x256) hz3]
     rw [finish_apply]
     simp only [addf_apply, term_apply, broadcast_apply, Ideal.ofBits_def, Ideal.ofBits_zero_f32, zero_add, zero_sub, blockRow,
       Finset.sum_range_succ, Finset.sum_range_zero, Nat.reduceMul, Nat.reduceAdd])
  · refine piece_ok x0 x1 3 Facts₀.inb_S8x256_S1x256_3_0 _ (fun x => ?_)
    (simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay2_eq, k1_pay3_eq, View.ld_unit_zero (S := S256x256) hz2, View.ld_unit_zero (S := S8x32x256) hz3]
     rw [finish_apply]
     simp only [addf_apply, term_apply, broadcast_apply, Ideal.ofBits_def, Ideal.ofBits_zero_f32, zero_add, zero_sub, blockRow,
       Finset.sum_range_succ, Finset.sum_range_zero, Nat.reduceMul, Nat.reduceAdd])
  · refine piece_ok x0 x1 2 Facts₀.inb_S8x256_S1x256_2_0 _ (fun x => ?_)
    (simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay2_eq, k1_pay3_eq, View.ld_unit_zero (S := S256x256) hz2, View.ld_unit_zero (S := S8x32x256) hz3]
     rw [finish_apply]
     simp only [addf_apply, term_apply, broadcast_apply, Ideal.ofBits_def, Ideal.ofBits_zero_f32, zero_add, zero_sub, blockRow,
       Finset.sum_range_succ, Finset.sum_range_zero, Nat.reduceMul, Nat.reduceAdd])
  · refine piece_ok x0 x1 1 Facts₀.inb_S8x256_S1x256_1_0 _ (fun x => ?_)
    (simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay2_eq, k1_pay3_eq, View.ld_unit_zero (S := S256x256) hz2, View.ld_unit_zero (S := S8x32x256) hz3]
     rw [finish_apply]
     simp only [addf_apply, term_apply, broadcast_apply, Ideal.ofBits_def, Ideal.ofBits_zero_f32, zero_add, zero_sub, blockRow,
       Finset.sum_range_succ, Finset.sum_range_zero, Nat.reduceMul, Nat.reduceAdd])
  · refine piece_ok x0 x1 0 Facts₀.inb_S8x256_S1x256_0_0 _ (fun x => ?_)
    (simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay2_eq, k1_pay3_eq, View.ld_unit_zero (S := S256x256) hz2, View.ld_unit_zero (S := S8x32x256) hz3]
     rw [finish_apply]
     simp only [addf_apply, term_apply, broadcast_apply, Ideal.ofBits_def, Ideal.ofBits_zero_f32, zero_add, zero_sub, blockRow,
       Finset.sum_range_succ, Finset.sum_range_zero, Nat.reduceMul, Nat.reduceAdd])

end Cert.L1Disc.Body

end
-- ==== Proof.DiscValue.lean ====
/-
  The second region's output array.

  The region's two inputs are the projected matrix `A : [256, 2048]` and the same numbers transposed,
  `B : [64, 32, 256]` (channel, feature, row).  Grid point `t` (of 8) takes the columns `256 t … 256 t + 255` of `A` —
  the 8 × 32 feature columns of channels `8 t … 8 t + 7` —, the channels `8 t … 8 t + 7` of `B`, and writes rows
  `8 t … 8 t + 7` of the output `[64, 256]`.  The eight row blocks tile the output, so after the region entry `(b, q)` is

      outBN A B (b, q) = (∑ p, exp (−∑ c < 32, |A(p, 32 b + c) − B(b, c, q)|)) − 1 .

  In order: an entry of each input block as an entry of its array; what point `t` writes back; the cover; the array.
-/
import proofs.«124473_j72430328481231_2_alg».proof.Proof.Body

set_option maxRecDepth 16384

noncomputable section

open scoped BigOperators

namespace Cert.L1Disc.Region

open Idealize.ShloMosaic Idealize.ShloMosaic.TcCoe Idealize.SL.Sem Cert.KernelIdeal Cert.KernelIdeal.Gen
open Idealize.ShloMosaic.ValueIdx Cert.L1Disc.Body
open Idealize.ShloMosaic.Pipeline (Dat)

/-- Entry `(p, n)` of the projected matrix, total in `n`. -/
def Acol (A : FVec Ideal S256x2048 .f32) (p : Fin 256) (n : ℕ) : EReal :=
  if h : n < 2048 then A (ix2 p ⟨n, h⟩) else 0

/-- Entry `(b, c, q)` of the transposed matrix, total in `b` and `c`. -/
def Brow (B : FVec Ideal S64x32x256 .f32) (b c : ℕ) (q : Fin 256) : EReal :=
  if h : b < 64 ∧ c < 32 then B (ix3 ⟨b, h.1⟩ ⟨c, h.2⟩ q) else 0

/-- The region's output as one function of its two input arrays. -/
def outBN (A : FVec Ideal S256x2048 .f32) (B : FVec Ideal S64x32x256 .f32) : FVec Ideal S64x256 .f32 := fun i =>
  (∑ p : Fin 256, Ideal.exp (-(∑ c ∈ Finset.range 32,
      max (Acol A p (32 * (i 0).val + c) - Brow B (i 0).val c (i 1)) (-(Acol A p (32 * (i 0).val + c) - Brow B (i 0).val c (i 1))))))
    - Ideal.ofBits .f32 0x3F800000#32

variable (V : (c : Dev nD) → (b : Ref sig .tc) → Buf (Elt Ideal) ((c : Thread nD τ).loc b))

/-- The printed index maps over the eight grid points: the matrix's window moves along the columns with the point,
    the transposed matrix's and the output's along the channels. -/
theorem idx_facts : ∀ t : Fin cfg1.N,
    win1_0.index t (0 : Fin 2) = 0 ∧ win1_0.index t (1 : Fin 2) = t.val
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-- Column `k` of point `t`'s tile is column `256 t + k` of the matrix. -/
theorem col_blk (c : Dev nD) (t : Fin cfg1.N) (p : Fin 256) (k : ℕ) (hk : k < 256) :
    colAt (iblk1 V c 0 t : Vec Ideal S256x256 .f32) p k = Acol (V c main_v1 : S256x2048.Idx → EReal) p (t.val * 256 + k) := by
  obtain ⟨e0, e1, -, -, -, -, -⟩ := idx_facts t
  have ht : t.val < 8 := t.isLt
  have hn : t.val * 256 + k < 2048 := by omega
  unfold colAt Acol
  rw [dif_pos hk, dif_pos hn]
  unfold iblk1
  rw [View.read_apply]
  show (V c main_v1 : S256x2048.Idx → EReal) (((cfg1.win 0).blk t).view.emb (ix2 p ⟨k, hk⟩)) = _
  refine congrArg _ (funext fun a => Fin.ext ?_)
  match a with
  | ⟨0, _⟩ => show win1_0.index t (0 : Fin 2) * 256 + 1 * p.val = p.val; omega
  | ⟨1, _⟩ => show win1_0.index t (1 : Fin 2) * 256 + 1 * k = t.val * 256 + k; omega

/-- Channel `a` of point `t`'s transposed block is channel `8 t + a` of the transposed matrix. -/
theorem row_blk (c : Dev nD) (t : Fin cfg1.N) (a b : ℕ) (ha : a < 8) (hb : b < 32) (q : Fin 256) :
    rowAt (iblk1 V c 1 t : Vec Ideal S8x32x256 .f32) a b q = Brow (V c main_v3 : S64x32x256.Idx → EReal) (t.val * 8 + a) b q := by
  obtain ⟨-, -, e2, e3, e4, -, -⟩ := idx_facts t
  have ht : t.val < 8 := t.isLt
  have hn : t.val * 8 + a < 64 ∧ b < 32 := by omega
  unfold rowAt Brow
  rw [dif_pos ⟨ha, hb⟩, dif_pos hn]
  unfold iblk1
  rw [View.read_apply]
  show (V c main_v3 : S64x32x256.Idx → EReal) (((cfg1.win 1).blk t).view.emb (ix3 ⟨a, ha⟩ ⟨b, hb⟩ q)) = _
  refine congrArg _ (funext fun d => Fin.ext ?_)
  match d with
  | ⟨0, _⟩ => show win1_1.index t (0 : Fin 3) * 8 + 1 * a = t.val * 8 + a; omega
  | ⟨1, _⟩ => show win1_1.index t (1 : Fin 3) * 32 + 1 * b = b; omega
  | ⟨2, _⟩ => show win1_1.index t (2 : Fin 3) * 256 + 1 * q.val = q.val; omega

/-- What point `t` writes back is block `t` of `outBN` of the region's two input arrays. -/
theorem flushed_eq (c : Dev nD) (t : Fin cfg1.N) :
    (dat1 V c).flushed 2 t = ((cfg1.win 2).blk t).view.read (Elt Ideal)
      (outBN (V c main_v1 : S256x2048.Idx → EReal) (V c main_v3 : S64x32x256.Idx → EReal)) := by
  show (cfg1.win 2).cut (grid1.coords t) ((dat1 V c).after 2 t) = _
  rw [after1_2]
  obtain ⟨-, -, -, -, -, e5, e6⟩ := idx_facts t
  funext j
  have hj0 : (j 0).val < 8 := (j 0).isLt
  have hj1 : (j 1).val < 256 := (j 1).isLt
  have ht : t.val < 8 := t.isLt
  have hb : t.val * 8 + (j 0).val < 64 := by omega
  have hx : (win1 2).xinj (grid1.coords t) j = ix2 (⟨(j 0).val, hj0⟩ : Fin 8) (⟨(j 1).val, hj1⟩ : Fin 256) :=
    funext fun a => by match a with | ⟨0, _⟩ => rfl | ⟨1, _⟩ => rfl
  have hy : ((cfg1.win 2).blk t).view.emb j = ix2 (⟨t.val * 8 + (j 0).val, hb⟩ : Fin 64) (⟨(j 1).val, hj1⟩ : Fin 256) :=
    funext fun a => Fin.ext (by
      match a with
      | ⟨0, _⟩ => show win1_2.index t (0 : Fin 2) * 8 + 1 * (j 0).val = t.val * 8 + (j 0).val; omega
      | ⟨1, _⟩ => show win1_2.index t (1 : Fin 2) * 256 + 1 * (j 1).val = (j 1).val; omega)
  show out1_2 (iblk1 V c 0 t) (iblk1 V c 1 t) ((win1 2).xinj (grid1.coords t) j) = _
  rw [hx, View.read_apply, hy]
  refine (out1_2_apply (iblk1 V c 0 t) (iblk1 V c 1 t) _).trans ?_
  show blockRow _ _ (j 0).val ⟨(j 1).val, hj1⟩ = _
  unfold blockRow outBN
  refine congrArg (· - _) (Finset.sum_congr rfl fun p _ => congrArg (fun s => Ideal.exp (-s)) (Finset.sum_congr rfl fun cc hc => ?_))
  have hc32 : cc < 32 := Finset.mem_range.mp hc
  unfold tcell
  rw [col_blk V c t p (32 * (j 0).val + cc) (by omega), row_blk V c t (j 0).val cc hj0 hc32]
  have e : t.val * 256 + (32 * (j 0).val + cc) = 32 * (t.val * 8 + (j 0).val) + cc := by omega
  rw [e]

/-- An index of the output array is in point `t`'s block iff each coordinate is in the block's range on its axis. -/
theorem mem_blk (t : Fin cfg1.N) (i : S64x256.Idx) :
    i ∈ ((cfg1.win 2).blk t).view.set ↔ ∀ a : Fin 2, win1_2.index t a * S8x256.size a ≤ (i a).val ∧ (i a).val < win1_2.index t a * S8x256.size a + S8x256.size a := by
  show i ∈ ((View.whole main_v4).slice (win1_2.rect t)).set ↔ _
  rw [View.set_slice_whole, Rect.mem_set_unit]
  exact Iff.rfl

/-- Every index of the output array is in some point's block: row `b` is in the block of point `b / 8`. -/
theorem cover (i : S64x256.Idx) :
    ∃ t : Fin cfg1.N, (cfg1.win 2).flush t = true ∧ i ∈ ((cfg1.win 2).blk t).view.set := by
  have hi0 : (i 0).val < 64 := (i 0).isLt
  have hi1 : (i 1).val < 256 := (i 1).isLt
  obtain ⟨t, htv⟩ : ∃ t : Fin cfg1.N, t.val = (i 0).val / 8 :=
    ⟨⟨(i 0).val / 8, by show (i 0).val / 8 < 8; omega⟩, rfl⟩
  obtain ⟨-, -, -, -, -, e5, e6⟩ := idx_facts t
  refine ⟨t, flush1_2 t, ?_⟩
  rw [mem_blk]
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 256 ≤ (i 1).val ∧ (i 1).val < win1_2.index t (1 : Fin 2) * 256 + 256; omega

/-- The output array after the second region is `outBN` of the region's two input arrays. -/
theorem disc_final (c : Dev nD) :
    (dat1 (F := Ideal) V c).arrAt 2 cfg1.N = outBN (V c main_v1 : S256x2048.Idx → EReal) (V c main_v3 : S64x32x256.Idx → EReal) :=
  (dat1 V c).arrAt_eq_of_cover 2 _ (fun t _ => flushed_eq V c t) cover

end Cert.L1Disc.Region

end
-- ==== Proof.Glue.lean ====
/-
  The kernel program's host side, and its result as one function of the arguments.

  Between the regions the projected matrix `M : [256, 2048]` (the first region's output, the reference's own product)
  is viewed as `[256, 64, 32]` and transposed to `[64, 32, 256]`, so the second region receives `A = M` and
  `B(b, c, q) = M(q, 32 b + c)`.  Its output, `outBN A B (b, q) = (∑ p, exp (−∑ c, |M(p, 32 b + c) − M(q, 32 b + c)|)) − 1`,
  is transposed to `[256, 64]` and joined to the first argument along the columns.  The transposed output is the
  discrimination `disc M` with the sum taken over the first row of each L1 cell, which the symmetry of the cell turns
  into `disc M` itself.
-/
import proofs.«124473_j72430328481231_2_alg».proof.Proof.Spec
import proofs.«124473_j72430328481231_2_alg».proof.Proof.ProjValue
import proofs.«124473_j72430328481231_2_alg».proof.Proof.DiscValue
import Idealize.ShloMosaic.Lib.StableHlo.Run

set_option maxRecDepth 16384

noncomputable section

open scoped BigOperators

namespace Cert.L1Disc.Glue

open Idealize.ShloMosaic Idealize.ShloMosaic.TcCoe Idealize.SL.Sem Cert.KernelIdeal Cert.KernelIdeal.Gen
open Idealize.ShloMosaic.ValueIdx Cert.L1Disc.Region

variable (m : (ℓ : Loc nD τ sig) → Buf (Elt Ideal) ℓ) (ρ : Dev nD → PrngReg)

/-- The projected matrix: the product of the first argument with the second read as a `[1024, 2048]` matrix. -/
abbrev Mv (c : Dev nD) : S256x2048.Idx → EReal :=
  Cert.ReferenceIdeal.Read.val_main_v1 (F := Ideal) (m ((c : Thread nD τ).loc main_arg0)) (m ((c : Thread nD τ).loc main_arg1))

/-- The first region leaves the projected matrix in its output buffer. -/
theorem exit0 (c : Dev nD) : (W2 m ρ c (Proc.devRef .tc main_v1) : S256x2048.Idx → EReal) = Mv m c :=
  (W2_arr m ρ c 2).trans (Cert.L1Disc.Proj.proj_final m ρ c)

/-- The second region's first input is the projected matrix. -/
theorem entry_M (c : Dev nD) : (V3 m ρ c main_v1 : S256x2048.Idx → EReal) = Mv m c := by
  show StableHlo.after hostOps1 (W2 m ρ c) (Proc.devRef .tc main_v1) = _
  after_results
  exact exit0 m ρ c

/-- The second region's second input is the projected matrix viewed `[256, 64, 32]` and transposed to `[64, 32, 256]`. -/
theorem entry_MT (c : Dev nD) : (V3 m ρ c main_v3 : S64x32x256.Idx → EReal)
    = transpose S64x32x256 [1, 2, 0] (shapeCast S256x64x32 (Mv m c) shapeCasts_S256x2048_S256x64x32) transposes_S256x64x32_S64x32x256_1_2_0 := by
  show StableHlo.after hostOps1 (W2 m ρ c) (Proc.devRef .tc main_v3) = _
  after_results
  rw [exit0 m ρ c]
  rfl

/-- The second region leaves `outBN` of its two inputs in its output buffer. -/
theorem exit1 (c : Dev nD) : (W4 m ρ c (Proc.devRef .tc main_v4) : S64x256.Idx → EReal)
    = outBN (V3 m ρ c main_v1 : S256x2048.Idx → EReal) (V3 m ρ c main_v3 : S64x32x256.Idx → EReal) :=
  (W4_arr m ρ c 2).trans (disc_final (V3 m ρ) c)

/-- The first argument is still the launch contents after the second region. -/
theorem kept_x (c : Dev nD) : W4 m ρ c (Proc.devRef .tc main_arg0) = m ((c : Thread nD τ).loc main_arg0) := by
  have e : W5 m ρ c (Proc.devRef .tc main_arg0) = W4 m ρ c (Proc.devRef .tc main_arg0) := by
    show StableHlo.after hostOps2 (W4 m ρ c) (Proc.devRef .tc main_arg0) = _
    after_results
  exact e.symm.trans (W5_main_arg0 m ρ c)

/-- The result buffer at the end: the first argument joined, along the columns, with the transposed output of the
    second region. -/
theorem result_raw (c : Dev nD) : (W5 m ρ c (Proc.devRef .tc main_v6) : S256x1088.Idx → EReal)
    = concatenate S256x1088 1 [⟨S256x1024, (m ((c : Thread nD τ).loc main_arg0) : S256x1024.Idx → EReal)⟩,
        ⟨S256x64, transpose S256x64 [1, 0] (outBN (V3 m ρ c main_v1 : S256x2048.Idx → EReal) (V3 m ρ c main_v3 : S64x32x256.Idx → EReal)) transposes_S64x256_S256x64_1_0⟩]
        concatenates_S256x1024_S256x64_S256x1088_d1 := by
  show StableHlo.after hostOps2 (W4 m ρ c) (Proc.devRef .tc main_v6) = _
  after_results
  rw [kept_x m ρ c, exit1 m ρ c]

/-- Entry `(b, c, q)` of the transposed `[256, 64, 32]` view of a matrix is its entry `(q, 32 b + c)`. -/
theorem transposed_apply (M : FVec Ideal S256x2048 .f32) (b : Fin 64) (cc : Fin 32) (q : Fin 256) :
    transpose S64x32x256 [1, 2, 0] (shapeCast S256x64x32 M shapeCasts_S256x2048_S256x64x32) transposes_S256x64x32_S64x32x256_1_2_0 (ix3 b cc q)
      = M (ix2 q ⟨32 * b.val + cc.val, by omega⟩) := by
  refine (transpose_apply [1, 2, 0] _ transposes_S256x64x32_S64x32x256_1_2_0 (ix3 b cc q) (ix3 q b cc) (fun a => ?_)).trans ?_
  · match a with
    | ⟨0, _⟩ => rfl
    | ⟨1, _⟩ => rfl
    | ⟨2, _⟩ => rfl
  · refine shapeCast_apply M shapeCasts_S256x2048_S256x64x32 (ix3 q b cc) (ix2 q ⟨32 * b.val + cc.val, by omega⟩) ?_
    rw [Shape.rowMajor_val_two, Shape.rowMajor_val_three]
    show q.val * 2048 + (32 * b.val + cc.val) = (q.val * 64 + b.val) * 32 + cc.val
    omega

/-- The second region's output on the projected matrix and its transposed view, transposed back to `[256, 64]`, is the
    discrimination of the projected matrix: the region sums over the FIRST row of each L1 cell, and the cell is
    symmetric. -/
theorem outBN_transposed (M : FVec Ideal S256x2048 .f32) :
    transpose S256x64 [1, 0]
        (outBN M (transpose S64x32x256 [1, 2, 0] (shapeCast S256x64x32 M shapeCasts_S256x2048_S256x64x32) transposes_S256x64x32_S64x32x256_1_2_0))
        transposes_S64x256_S256x64_1_0
      = Cert.L1Disc.disc M := by
  funext i
  obtain ⟨j, b, rfl⟩ : ∃ (j : Fin 256) (b : Fin 64), i = ix2 j b := ⟨i 0, i 1, eq_ix2 i⟩
  refine (transpose_apply [1, 0] _ transposes_S64x256_S256x64_1_0 (ix2 j b) (ix2 b j) (fun a => ?_)).trans ?_
  · match a with
    | ⟨0, _⟩ => rfl
    | ⟨1, _⟩ => rfl
  · rw [Cert.L1Disc.disc_swap]
    unfold outBN
    refine congrArg (· - _) (Finset.sum_congr rfl fun p _ => congrArg (fun s => Ideal.exp (-s)) ?_)
    rw [Finset.sum_range]
    refine Finset.sum_congr rfl fun cc _ => ?_
    have hb : b.val < 64 := b.isLt
    have hc : cc.val < 32 := cc.isLt
    have hn : 32 * b.val + cc.val < 2048 := by omega
    show max (Acol M p (32 * b.val + cc.val) - Brow _ b.val cc.val j) (-(Acol M p (32 * b.val + cc.val) - Brow _ b.val cc.val j))
      = Cert.L1Disc.cell M p j b cc
    unfold Cert.L1Disc.cell Acol Brow
    rw [dif_pos hn, dif_pos ⟨hb, hc⟩]
    rw [transposed_apply M ⟨b.val, hb⟩ ⟨cc.val, hc⟩ j]

/-- THE KERNEL'S RESULT: the first argument joined, along the columns, with the discrimination of the projected
    matrix. -/
theorem result_eq (c : Dev nD) : (W5 m ρ c (Proc.devRef .tc main_v6) : S256x1088.Idx → EReal)
    = concatenate S256x1088 1 [⟨S256x1024, (m ((c : Thread nD τ).loc main_arg0) : S256x1024.Idx → EReal)⟩,
        ⟨S256x64, Cert.L1Disc.disc (Mv m c)⟩] concatenates_S256x1024_S256x64_S256x1088_d1 := by
  rw [result_raw m ρ c, entry_M m ρ c, entry_MT m ρ c, outBN_transposed]

end Cert.L1Disc.Glue

end
-- ==== Proof.RefDisc.lean ====
/-
  The reference program, read one element at a time, is the minibatch discrimination `disc` of its projected matrix.

  With `M = x0 · reshape(x1)` of shape `[256, 2048]`, the reference views `M` as `[256, 64, 32]`
  (`(i, b, c) ↦ M(i, 32 b + c)`), forms `|M(i, 32 b + c) − M(j, 32 b + c)|` over `[256, 256, 64, 32]`, sums over the
  feature `c` starting from `0`, negates, exponentiates, sums over the second row `j` starting from `0`, and
  subtracts `1`. The only arithmetic is that of the flattened position: `((p · 64 + b) · 32 + c) / 2048 = p` and
  `((p · 64 + b) · 32 + c) % 2048 = 32 b + c` for `b < 64`, `c < 32`.
-/
import proofs.«124473_j72430328481231_2_alg».proof.Proof.Spec
import proofs.«124473_j72430328481231_2_alg».proof.Proof.Gen.ReferenceIdeal.Read

noncomputable section

open scoped BigOperators

namespace Cert.L1Disc.Ref

open Idealize.ShloMosaic Idealize.ShloMosaic.ValueIdx Cert.ReferenceIdeal Cert.ReferenceIdeal.Read in
/-- Row `p`, channel `b`, feature `c` of the `[256, 64, 32]` view is column `32 b + c` of row `p`. -/
theorem idx_left (p j : Fin 256) (b : Fin 64) (c : Fin 32) :
    idx_main_v2 (idx_main_v3 (idx_main_v5 (idx_main_v9 (idx_main_v12 (ix2 p b) j) c)))
      = ix2 p ⟨32 * b.val + c.val, by omega⟩ :=
  funext fun a => Fin.ext (by
    match a with
    | ⟨0, _⟩ =>
      show ((p.val * 64 + b.val) * 32 + c.val) / 2048 = p.val
      omega
    | ⟨1, _⟩ =>
      show ((p.val * 64 + b.val) * 32 + c.val) % 2048 = 32 * b.val + c.val
      omega)

open Idealize.ShloMosaic Idealize.ShloMosaic.ValueIdx Cert.ReferenceIdeal Cert.ReferenceIdeal.Read in
/-- The same for the second row `j` of the pair, which the reference lays along the second axis. -/
theorem idx_right (p j : Fin 256) (b : Fin 64) (c : Fin 32) :
    idx_main_v2 (idx_main_v4 (idx_main_v6 (idx_main_v9 (idx_main_v12 (ix2 p b) j) c)))
      = ix2 j ⟨32 * b.val + c.val, by omega⟩ :=
  funext fun a => Fin.ext (by
    match a with
    | ⟨0, _⟩ =>
      show ((j.val * 64 + b.val) * 32 + c.val) / 2048 = j.val
      omega
    | ⟨1, _⟩ =>
      show ((j.val * 64 + b.val) * 32 + c.val) % 2048 = 32 * b.val + c.val
      omega)

open Idealize.ShloMosaic Idealize.ShloMosaic.ValueIdx Cert.ReferenceIdeal Cert.ReferenceIdeal.Read in
/-- The reference's result before the final concatenation is `disc` of its projected matrix: the cell's first row is
    the output row and the summed row is the cell's second row, exactly as `disc` is defined. -/
theorem val_main_v14_eq_disc (x0 : (⟨S256x1024, .f32⟩ : BufTy).Contents (Elt Ideal)) (x1 : (⟨S1024x64x32, .f32⟩ : BufTy).Contents (Elt Ideal)) :
    val_main_v14 (F := Ideal) x0 x1 = Cert.L1Disc.disc (val_main_v1 (F := Ideal) x0 x1) := by
  funext i
  obtain ⟨p, b, rfl⟩ : ∃ (p : Fin 256) (b : Fin 64), i = ix2 p b := ⟨i 0, i 1, eq_ix2 i⟩
  rw [val_main_v14_apply, val_main_v12_apply, val_main_v13_apply, val_main_cst_1_apply, val_main_cst_0_apply]
  simp only [val_main_v11_apply, val_main_v10_apply, val_main_v9_apply, val_main_v8_apply, val_main_v7_apply,
    val_main_v5_apply, val_main_v6_apply, val_main_v3_apply, val_main_v4_apply, val_main_v2_apply, val_main_cst_apply]
  simp only [idx_left, idx_right]
  rw [Ideal.ofBits_def, Ideal.ofBits_zero_f32, zero_add, Ideal.subf_def]
  unfold Cert.L1Disc.disc
  refine congrArg (· - _) (Finset.sum_congr rfl fun j _ => ?_)
  rw [Ideal.hostUnary_exp_def]
  refine congrArg Ideal.exp ?_
  show -(_ + _) = -_
  rw [zero_add]
  rfl

end Cert.L1Disc.Ref

end
-- ==== Proof.lean ====
/-
  The kernel computes a minibatch discrimination layer in two tiled stages and the reference computes it in one
  piece; over the extended reals the two results are equal entry by entry.

  Both programs first project: `M = x · T`, with `T : [1024, 64, 32]` read as a `[1024, 2048]` matrix.  The kernel
  rounds both factors to a narrower format before multiplying and computes the product in two column blocks; on the
  extended reals a change of format is the identity and a product into a zero accumulator is the plain sum over the
  shared index, so its `M` is the reference's (`ProjValue`).

  Then, for each row `i` and channel `b`, both compute
  `(∑ j, exp (−∑ c, |M(i, 32 b + c) − M(j, 32 b + c)|)) − 1` (`Spec`: `disc M`).  The reference forms the
  `[256, 256, 64, 32]` array of absolute differences and reduces it twice (`RefDisc`).  The kernel takes eight channels
  per grid point and, per channel, adds the 32 features' `[256, 256]` tiles one after the other starting from zero,
  negates as `0 − ·`, exponentiates, and sums each tile column over its rows (`Body`, `DiscValue`): it sums over the
  FIRST row of each L1 cell where the reference sums over the second, and writes the channel-major transpose of the
  result, which the host transposes back (`Glue`).  The two agree because `|a − b| = |b − a|` for every pair of
  extended reals, because a left-nested sum from zero is the finite sum, and because `0 − s = −s`; no use is made of the
  inputs being finite.  Both programs end by joining `x` and that `[256, 64]` array along the columns.

  The three frames are the generated ones (the reference's is its generated run with the result dropped), the
  idealization rewrote nothing, and the kernel program's run with its result named is `KRun`.
-/
import proofs.«124473_j72430328481231_2_alg».proof.Defs
import proofs.«124473_j72430328481231_2_alg».proof.Proof.Gen.Kernel
import proofs.«124473_j72430328481231_2_alg».proof.Proof.Gen.Kernel.Skeleton
import proofs.«124473_j72430328481231_2_alg».proof.Proof.Gen.Kernel.Launch
import proofs.«124473_j72430328481231_2_alg».proof.Proof.Gen.Kernel.Points
import proofs.«124473_j72430328481231_2_alg».proof.Proof.Gen.Kernel.Frame
import proofs.«124473_j72430328481231_2_alg».proof.Proof.Gen.KernelIdeal
import proofs.«124473_j72430328481231_2_alg».proof.Proof.Gen.KernelIdeal.Skeleton
import proofs.«124473_j72430328481231_2_alg».proof.Proof.Gen.KernelIdeal.Launch
import proofs.«124473_j72430328481231_2_alg».proof.Proof.Gen.KernelIdeal.Points
import proofs.«124473_j72430328481231_2_alg».proof.Proof.Gen.KernelIdeal.Frame
import proofs.«124473_j72430328481231_2_alg».proof.Proof.Gen.ReferenceIdeal
import proofs.«124473_j72430328481231_2_alg».proof.Proof.Gen.Pre_finite_inputs
import proofs.«124473_j72430328481231_2_alg».proof.Proof.Gen.ReferenceIdeal.Run
import proofs.«124473_j72430328481231_2_alg».proof.Proof.Gen.ReferenceIdeal.Read
import proofs.«124473_j72430328481231_2_alg».proof.Proof.KRun
import proofs.«124473_j72430328481231_2_alg».proof.Proof.Glue
import proofs.«124473_j72430328481231_2_alg».proof.Proof.RefDisc
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result, from its generated run: the first argument joined with the discrimination of the projected
    matrix. -/
theorem ref_result (x0 : (⟨Cert.ReferenceIdeal.S256x1024, .f32⟩ : BufTy).Contents (Elt Ideal))
    (x1 : (⟨Cert.ReferenceIdeal.S1024x64x32, .f32⟩ : BufTy).Contents (Elt Ideal)) :
    Cert.ReferenceIdeal.Read.val_main_v15 (F := Ideal) x0 x1
      = concatenate Cert.ReferenceIdeal.S256x1088 1 [⟨Cert.ReferenceIdeal.S256x1024, x0⟩,
          ⟨Cert.ReferenceIdeal.S256x64, Cert.L1Disc.disc (Cert.ReferenceIdeal.Read.val_main_v1 (F := Ideal) x0 x1)⟩]
          Cert.ReferenceIdeal.Facts₀.concatenates_S256x1024_S256x64_S256x1088_d1 := by
  unfold Cert.ReferenceIdeal.Read.val_main_v15
  rw [Cert.L1Disc.Ref.val_main_v14_eq_disc]

/-- At the ideal instance, from memories agreeing on the arguments, both programs end with the first argument joined
    to `disc M`, `M` the projected matrix of the shared arguments. -/
theorem algebraic : Cert.algebraic_KernelIdeal_ReferenceIdeal := by
  intro m ρ m' ρ' _ hagree
  refine ⟨fun c => concatenate Cert.KernelIdeal.S256x1088 1
      [⟨Cert.KernelIdeal.S256x1024, (m ((c.tc : Thread Cert.KernelIdeal.nD Cert.KernelIdeal.τ).loc Cert.KernelIdeal.main_arg0) : Cert.KernelIdeal.S256x1024.Idx → EReal)⟩,
       ⟨Cert.KernelIdeal.S256x64, Cert.L1Disc.disc (Cert.L1Disc.Glue.Mv m c)⟩]
      Cert.KernelIdeal.Facts₀.concatenates_S256x1024_S256x64_S256x1088_d1, ?_, ?_⟩
  · exact (θ_run Cert.KernelIdeal.defs _ _).mono
      (fun r h c => ⟨(h c).1.trans (Cert.L1Disc.Glue.result_eq m ρ c), (h c).2⟩)
      (Cert.L1Disc.KRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
